-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x2 : Shape := ⟨2, ![262144, 2]⟩
abbrev S2x10 : Shape := ⟨2, ![2, 10]⟩
abbrev S10 : Shape := ⟨1, ![10]⟩
abbrev S10x20 : Shape := ⟨2, ![10, 20]⟩
abbrev S20 : Shape := ⟨1, ![20]⟩
abbrev S20x50 : Shape := ⟨2, ![20, 50]⟩
abbrev S50 : Shape := ⟨1, ![50]⟩
abbrev S50x100 : Shape := ⟨2, ![50, 100]⟩
abbrev S100 : Shape := ⟨1, ![100]⟩
abbrev S_ : Shape := ⟨0, ![]⟩

class Facts : Prop where
  bcast_S_S262144x2 : S_.BroadcastsInDim S262144x2 (![] : Fin 0 → Fin S262144x2.rank)
  reducesTo_S262144x2_S_d0_1 : S262144x2.ReducesTo [0, 1] S_
  h_S_ : 0 < S_.numel
  bcast_S_S2x10 : S_.BroadcastsInDim S2x10 (![] : Fin 0 → Fin S2x10.rank)
  reducesTo_S2x10_S_d0_1 : S2x10.ReducesTo [0, 1] S_
  bcast_S_S10 : S_.BroadcastsInDim S10 (![] : Fin 0 → Fin S10.rank)
  reducesTo_S10_S_d0 : S10.ReducesTo [0] S_
  bcast_S_S10x20 : S_.BroadcastsInDim S10x20 (![] : Fin 0 → Fin S10x20.rank)
  reducesTo_S10x20_S_d0_1 : S10x20.ReducesTo [0, 1] S_
  bcast_S_S20 : S_.BroadcastsInDim S20 (![] : Fin 0 → Fin S20.rank)
  reducesTo_S20_S_d0 : S20.ReducesTo [0] S_
  bcast_S_S20x50 : S_.BroadcastsInDim S20x50 (![] : Fin 0 → Fin S20x50.rank)
  reducesTo_S20x50_S_d0_1 : S20x50.ReducesTo [0, 1] S_
  bcast_S_S50 : S_.BroadcastsInDim S50 (![] : Fin 0 → Fin S50.rank)
  reducesTo_S50_S_d0 : S50.ReducesTo [0] S_
  bcast_S_S50x100 : S_.BroadcastsInDim S50x100 (![] : Fin 0 → Fin S50x100.rank)
  reducesTo_S50x100_S_d0_1 : S50x100.ReducesTo [0, 1] S_
  bcast_S_S100 : S_.BroadcastsInDim S100 (![] : Fin 0 → Fin S100.rank)
  reducesTo_S100_S_d0 : S100.ReducesTo [0] S_

variable [Facts]

def fn_part4 {F : FTy → Type} [FloatOps F] (main_arg14 : FVec F S50 .f32) (main_arg15 : FVec F S50x100 .f32) (main_arg16 : FVec F S100 .f32) (main_v63 : IVec S_ 1) (main_v67 : IVec S_ 1) : IVec S_ 1 :=
  let main_v68 : IVec S_ 1 := andi main_v63 main_v67
  let main_v69 : FVec F S50 .f32 := Host.absf main_arg14
  let main_cst_26 : FVec F S_ .f32 := constant S_ .f32 0x7F800000#32
  let main_v70 : FVec F S50 .f32 := broadcastInDim S50 ![] bcast_S_S50 main_cst_26
  let main_v71 : IVec S50 1 := cmpf .olt main_v69 main_v70
  let main_c_27 : IVec S_ 1 := constantI S_ 1 1#1
  let main_v72 : IVec S_ 1 := (fun x v => Host.reduce IntOp.andi x v reducesTo_S50_S_d0 h_S_) main_v71 main_c_27
  let main_v73 : IVec S_ 1 := andi main_v68 main_v72
  let main_v74 : FVec F S50x100 .f32 := Host.absf main_arg15
  let main_cst_28 : FVec F S_ .f32 := constant S_ .f32 0x7F800000#32
  let main_v75 : FVec F S50x100 .f32 := broadcastInDim S50x100 ![] bcast_S_S50x100 main_cst_28
  let main_v76 : IVec S50x100 1 := cmpf .olt main_v74 main_v75
  let main_c_29 : IVec S_ 1 := constantI S_ 1 1#1
  let main_v77 : IVec S_ 1 := (fun x v => Host.reduce IntOp.andi x v reducesTo_S50x100_S_d0_1 h_S_) main_v76 main_c_29
  let main_v78 : IVec S_ 1 := andi main_v73 main_v77
  let main_v79 : FVec F S100 .f32 := Host.absf main_arg16
  let main_cst_30 : FVec F S_ .f32 := constant S_ .f32 0x7F800000#32
  let main_v80 : FVec F S100 .f32 := broadcastInDim S100 ![] bcast_S_S100 main_cst_30
  let main_v81 : IVec S100 1 := cmpf .olt main_v79 main_v80
  let main_c_31 : IVec S_ 1 := constantI S_ 1 1#1
  let main_v82 : IVec S_ 1 := (fun x v => Host.reduce IntOp.andi x v reducesTo_S100_S_d0 h_S_) main_v81 main_c_31
  let main_v83 : IVec S_ 1 := andi main_v78 main_v82
  main_v83

def fn_part3 {F : FTy → Type} [FloatOps F] (main_arg11 : FVec F S10x20 .f32) (main_arg12 : FVec F S20 .f32) (main_arg13 : FVec F S20x50 .f32) (main_arg14 : FVec F S50 .f32) (main_arg15 : FVec F S50x100 .f32) (main_arg16 : FVec F S100 .f32) (main_v48 : IVec S_ 1) (main_v49 : FVec F S10 .f32) (main_v50 : FVec F S10 .f32) : IVec S_ 1 :=
  let main_v51 : IVec S10 1 := cmpf .olt main_v49 main_v50
  let main_c_19 : IVec S_ 1 := constantI S_ 1 1#1
  let main_v52 : IVec S_ 1 := (fun x v => Host.reduce IntOp.andi x v reducesTo_S10_S_d0 h_S_) main_v51 main_c_19
  let main_v53 : IVec S_ 1 := andi main_v48 main_v52
  let main_v54 : FVec F S10x20 .f32 := Host.absf main_arg11
  let main_cst_20 : FVec F S_ .f32 := constant S_ .f32 0x7F800000#32
  let main_v55 : FVec F S10x20 .f32 := broadcastInDim S10x20 ![] bcast_S_S10x20 main_cst_20
  let main_v56 : IVec S10x20 1 := cmpf .olt main_v54 main_v55
  let main_c_21 : IVec S_ 1 := constantI S_ 1 1#1
  let main_v57 : IVec S_ 1 := (fun x v => Host.reduce IntOp.andi x v reducesTo_S10x20_S_d0_1 h_S_) main_v56 main_c_21
  let main_v58 : IVec S_ 1 := andi main_v53 main_v57
  let main_v59 : FVec F S20 .f32 := Host.absf main_arg12
  let main_cst_22 : FVec F S_ .f32 := constant S_ .f32 0x7F800000#32
  let main_v60 : FVec F S20 .f32 := broadcastInDim S20 ![] bcast_S_S20 main_cst_22
  let main_v61 : IVec S20 1 := cmpf .olt main_v59 main_v60
  let main_c_23 : IVec S_ 1 := constantI S_ 1 1#1
  let main_v62 : IVec S_ 1 := (fun x v => Host.reduce IntOp.andi x v reducesTo_S20_S_d0 h_S_) main_v61 main_c_23
  let main_v63 : IVec S_ 1 := andi main_v58 main_v62
  let main_v64 : FVec F S20x50 .f32 := Host.absf main_arg13
  let main_cst_24 : FVec F S_ .f32 := constant S_ .f32 0x7F800000#32
  let main_v65 : FVec F S20x50 .f32 := broadcastInDim S20x50 ![] bcast_S_S20x50 main_cst_24
  let main_v66 : IVec S20x50 1 := cmpf .olt main_v64 main_v65
  let main_c_25 : IVec S_ 1 := constantI S_ 1 1#1
  let main_v67 : IVec S_ 1 := (fun x v => Host.reduce IntOp.andi x v reducesTo_S20x50_S_d0_1 h_S_) main_v66 main_c_25
  fn_part4 (F := F) main_arg14 main_arg15 main_arg16 main_v63 main_v67

def fn_part2 {F : FTy → Type} [FloatOps F] (main_arg7 : FVec F S50x100 .f32) (main_arg8 : FVec F S100 .f32) (main_arg9 : FVec F S2x10 .f32) (main_arg10 : FVec F S10 .f32) (main_arg11 : FVec F S10x20 .f32) (main_arg12 : FVec F S20 .f32) (main_arg13 : FVec F S20x50 .f32) (main_arg14 : FVec F S50 .f32) (main_arg15 : FVec F S50x100 .f32) (main_arg16 : FVec F S100 .f32) (main_v33 : IVec S_ 1) : IVec S_ 1 :=
  let main_v34 : FVec F S50x100 .f32 := Host.absf main_arg7
  let main_cst_12 : FVec F S_ .f32 := constant S_ .f32 0x7F800000#32
  let main_v35 : FVec F S50x100 .f32 := broadcastInDim S50x100 ![] bcast_S_S50x100 main_cst_12
  let main_v36 : IVec S50x100 1 := cmpf .olt main_v34 main_v35
  let main_c_13 : IVec S_ 1 := constantI S_ 1 1#1
  let main_v37 : IVec S_ 1 := (fun x v => Host.reduce IntOp.andi x v reducesTo_S50x100_S_d0_1 h_S_) main_v36 main_c_13
  let main_v38 : IVec S_ 1 := andi main_v33 main_v37
  let main_v39 : FVec F S100 .f32 := Host.absf main_arg8
  let main_cst_14 : FVec F S_ .f32 := constant S_ .f32 0x7F800000#32
  let main_v40 : FVec F S100 .f32 := broadcastInDim S100 ![] bcast_S_S100 main_cst_14
  let main_v41 : IVec S100 1 := cmpf .olt main_v39 main_v40
  let main_c_15 : IVec S_ 1 := constantI S_ 1 1#1
  let main_v42 : IVec S_ 1 := (fun x v => Host.reduce IntOp.andi x v reducesTo_S100_S_d0 h_S_) main_v41 main_c_15
  let main_v43 : IVec S_ 1 := andi main_v38 main_v42
  let main_v44 : FVec F S2x10 .f32 := Host.absf main_arg9
  let main_cst_16 : FVec F S_ .f32 := constant S_ .f32 0x7F800000#32
  let main_v45 : FVec F S2x10 .f32 := broadcastInDim S2x10 ![] bcast_S_S2x10 main_cst_16
  let main_v46 : IVec S2x10 1 := cmpf .olt main_v44 main_v45
  let main_c_17 : IVec S_ 1 := constantI S_ 1 1#1
  let main_v47 : IVec S_ 1 := (fun x v => Host.reduce IntOp.andi x v reducesTo_S2x10_S_d0_1 h_S_) main_v46 main_c_17
  let main_v48 : IVec S_ 1 := andi main_v43 main_v47
  let main_v49 : FVec F S10 .f32 := Host.absf main_arg10
  let main_cst_18 : FVec F S_ .f32 := constant S_ .f32 0x7F800000#32
  let main_v50 : FVec F S10 .f32 := broadcastInDim S10 ![] bcast_S_S10 main_cst_18
  fn_part3 (F := F) main_arg11 main_arg12 main_arg13 main_arg14 main_arg15 main_arg16 main_v48 main_v49 main_v50

def fn_part1 {F : FTy → Type} [FloatOps F] (main_arg4 : FVec F S20 .f32) (main_arg5 : FVec F S20x50 .f32) (main_arg6 : FVec F S50 .f32) (main_arg7 : FVec F S50x100 .f32) (main_arg8 : FVec F S100 .f32) (main_arg9 : FVec F S2x10 .f32) (main_arg10 : FVec F S10 .f32) (main_arg11 : FVec F S10x20 .f32) (main_arg12 : FVec F S20 .f32) (main_arg13 : FVec F S20x50 .f32) (main_arg14 : FVec F S50 .f32) (main_arg15 : FVec F S50x100 .f32) (main_arg16 : FVec F S100 .f32) (main_v13 : IVec S_ 1) (main_v16 : IVec S10x20 1) : IVec S_ 1 :=
  let main_c_5 : IVec S_ 1 := constantI S_ 1 1#1
  let main_v17 : IVec S_ 1 := (fun x v => Host.reduce IntOp.andi x v reducesTo_S10x20_S_d0_1 h_S_) main_v16 main_c_5
  let main_v18 : IVec S_ 1 := andi main_v13 main_v17
  let main_v19 : FVec F S20 .f32 := Host.absf main_arg4
  let main_cst_6 : FVec F S_ .f32 := constant S_ .f32 0x7F800000#32
  let main_v20 : FVec F S20 .f32 := broadcastInDim S20 ![] bcast_S_S20 main_cst_6
  let main_v21 : IVec S20 1 := cmpf .olt main_v19 main_v20
  let main_c_7 : IVec S_ 1 := constantI S_ 1 1#1
  let main_v22 : IVec S_ 1 := (fun x v => Host.reduce IntOp.andi x v reducesTo_S20_S_d0 h_S_) main_v21 main_c_7
  let main_v23 : IVec S_ 1 := andi main_v18 main_v22
  let main_v24 : FVec F S20x50 .f32 := Host.absf main_arg5
  let main_cst_8 : FVec F S_ .f32 := constant S_ .f32 0x7F800000#32
  let main_v25 : FVec F S20x50 .f32 := broadcastInDim S20x50 ![] bcast_S_S20x50 main_cst_8
  let main_v26 : IVec S20x50 1 := cmpf .olt main_v24 main_v25
  let main_c_9 : IVec S_ 1 := constantI S_ 1 1#1
  let main_v27 : IVec S_ 1 := (fun x v => Host.reduce IntOp.andi x v reducesTo_S20x50_S_d0_1 h_S_) main_v26 main_c_9
  let main_v28 : IVec S_ 1 := andi main_v23 main_v27
  let main_v29 : FVec F S50 .f32 := Host.absf main_arg6
  let main_cst_10 : FVec F S_ .f32 := constant S_ .f32 0x7F800000#32
  let main_v30 : FVec F S50 .f32 := broadcastInDim S50 ![] bcast_S_S50 main_cst_10
  let main_v31 : IVec S50 1 := cmpf .olt main_v29 main_v30
  let main_c_11 : IVec S_ 1 := constantI S_ 1 1#1
  let main_v32 : IVec S_ 1 := (fun x v => Host.reduce IntOp.andi x v reducesTo_S50_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_v33

def fn {F : FTy → Type} [FloatOps F] (main_arg0 : FVec F S262144x2 .f32) (main_arg1 : FVec F S2x10 .f32) (main_arg2 : FVec F S10 .f32) (main_arg3 : FVec F S10x20 .f32) (main_arg4 : FVec F S20 .f32) (main_arg5 : FVec F S20x50 .f32) (main_arg6 : FVec F S50 .f32) (main_arg7 : FVec F S50x100 .f32) (main_arg8 : FVec F S100 .f32) (main_arg9 : FVec F S2x10 .f32) (main_arg10 : FVec F S10 .f32) (main_arg11 : FVec F S10x20 .f32) (main_arg12 : FVec F S20 .f32) (main_arg13 : FVec F S20x50 .f32) (main_arg14 : FVec F S50 .f32) (main_arg15 : FVec F S50x100 .f32) (main_arg16 : FVec F S100 .f32) : IVec S_ 1 :=
  let main_v0 : FVec F S262144x2 .f32 := Host.absf main_arg0
  let main_cst : FVec F S_ .f32 := constant S_ .f32 0x7F800000#32
  let main_v1 : FVec F S262144x2 .f32 := broadcastInDim S262144x2 ![] bcast_S_S262144x2 main_cst
  let main_v2 : IVec S262144x2 1 := cmpf .olt main_v0 main_v1
  let main_c : IVec S_ 1 := constantI S_ 1 1#1
  let main_v3 : IVec S_ 1 := (fun x v => Host.reduce IntOp.andi x v reducesTo_S262144x2_S_d0_1 h_S_) main_v2 main_c
  let main_v4 : FVec F S2x10 .f32 := Host.absf main_arg1
  let main_cst_0 : FVec F S_ .f32 := constant S_ .f32 0x7F800000#32
  let main_v5 : FVec F S2x10 .f32 := broadcastInDim S2x10 ![] bcast_S_S2x10 main_cst_0
  let main_v6 : IVec S2x10 1 := cmpf .olt main_v4 main_v5
  let main_c_1 : IVec S_ 1 := constantI S_ 1 1#1
  let main_v7 : IVec S_ 1 := (fun x v => Host.reduce IntOp.andi x v reducesTo_S2x10_S_d0_1 h_S_) main_v6 main_c_1
  let main_v8 : IVec S_ 1 := andi main_v3 main_v7
  let main_v9 : FVec F S10 .f32 := Host.absf main_arg2
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  let main_v14 : FVec F S10x20 .f32 := Host.absf main_arg3
  let main_cst_4 : FVec F S_ .f32 := constant S_ .f32 0x7F800000#32
  let main_v15 : FVec F S10x20 .f32 := broadcastInDim S10x20 ![] bcast_S_S10x20 main_cst_4
  let main_v16 : IVec S10x20 1 := cmpf .olt main_v14 main_v15
  fn_part1 (F := F) main_arg4 main_arg5 main_arg6 main_arg7 main_arg8 main_arg9 main_arg10 main_arg11 main_arg12 main_arg13 main_arg14 main_arg15 main_arg16 main_v13 main_v16
-- ==== Kernel.lean ====
abbrev S262144x2 : Shape := ⟨2, ![262144, 2]⟩
abbrev S2x10 : Shape := ⟨2, ![2, 10]⟩
abbrev S10 : Shape := ⟨1, ![10]⟩
abbrev S10x20 : Shape := ⟨2, ![10, 20]⟩
abbrev S20 : Shape := ⟨1, ![20]⟩
abbrev S20x50 : Shape := ⟨2, ![20, 50]⟩
abbrev S50 : Shape := ⟨1, ![50]⟩
abbrev S50x100 : Shape := ⟨2, ![50, 100]⟩
abbrev S100 : Shape := ⟨1, ![100]⟩
abbrev S2x262144 : Shape := ⟨2, ![2, 262144]⟩
abbrev S10x1 : Shape := ⟨2, ![10, 1]⟩
abbrev S20x1 : Shape := ⟨2, ![20, 1]⟩
abbrev S50x1 : Shape := ⟨2, ![50, 1]⟩
abbrev S1x100 : Shape := ⟨2, ![1, 100]⟩
abbrev S262144x100 : Shape := ⟨2, ![262144, 100]⟩
abbrev S2x8192 : Shape := ⟨2, ![2, 8192]⟩
abbrev S8192x100 : Shape := ⟨2, ![8192, 100]⟩
abbrev S10x8192 : Shape := ⟨2, ![10, 8192]⟩
abbrev S20x8192 : Shape := ⟨2, ![20, 8192]⟩
abbrev S50x8192 : Shape := ⟨2, ![50, 8192]⟩

abbrev nBuf : Space → Nat
  | .hbm => 27
  | .vmem => 20
  | .smem => 0
  | _ => 0

abbrev bufTy : (tb : Table) → Fin (tcTables nBuf tb) → BufTy
  | .hbm, ⟨0, _⟩ => ⟨S262144x2, .f32⟩
  | .hbm, ⟨1, _⟩ => ⟨S2x10, .f32⟩
  | .hbm, ⟨2, _⟩ => ⟨S10, .f32⟩
  | .hbm, ⟨3, _⟩ => ⟨S10x20, .f32⟩
  | .hbm, ⟨4, _⟩ => ⟨S20, .f32⟩
  | .hbm, ⟨5, _⟩ => ⟨S20x50, .f32⟩
  | .hbm, ⟨6, _⟩ => ⟨S50, .f32⟩
  | .hbm, ⟨7, _⟩ => ⟨S50x100, .f32⟩
  | .hbm, ⟨8, _⟩ => ⟨S100, .f32⟩
  | .hbm, ⟨9, _⟩ => ⟨S2x10, .f32⟩
  | .hbm, ⟨10, _⟩ => ⟨S10, .f32⟩
  | .hbm, ⟨11, _⟩ => ⟨S10x20, .f32⟩
  | .hbm, ⟨12, _⟩ => ⟨S20, .f32⟩
  | .hbm, ⟨13, _⟩ => ⟨S20x50, .f32⟩
  | .hbm, ⟨14, _⟩ => ⟨S50, .f32⟩
  | .hbm, ⟨15, _⟩ => ⟨S50x100, .f32⟩
  | .hbm, ⟨16, _⟩ => ⟨S100, .f32⟩
  | .hbm, ⟨17, _⟩ => ⟨S2x262144, .f32⟩
  | .hbm, ⟨18, _⟩ => ⟨S10x1, .f32⟩
  | .hbm, ⟨19, _⟩ => ⟨S20x1, .f32⟩
  | .hbm, ⟨20, _⟩ => ⟨S50x1, .f32⟩
  | .hbm, ⟨21, _⟩ => ⟨S1x100, .f32⟩
  | .hbm, ⟨22, _⟩ => ⟨S10x1, .f32⟩
  | .hbm, ⟨23, _⟩ => ⟨S20x1, .f32⟩
  | .hbm, ⟨24, _⟩ => ⟨S50x1, .f32⟩
  | .hbm, ⟨25, _⟩ => ⟨S1x100, .f32⟩
  | .hbm, ⟨26, _⟩ => ⟨S262144x100, .f32⟩
  | .local _ .vmem, ⟨0, _⟩ => ⟨S2x8192, .f32⟩
  | .local _ .vmem, ⟨1, _⟩ => ⟨S2x8192, .f32⟩
  | .local _ .vmem, ⟨2, _⟩ => ⟨S2x10, .f32⟩
  | .local _ .vmem, ⟨3, _⟩ => ⟨S10x1, .f32⟩
  | .local _ .vmem, ⟨4, _⟩ => ⟨S10x20, .f32⟩
  | .local _ .vmem, ⟨5, _⟩ => ⟨S20x1, .f32⟩
  | .local _ .vmem, ⟨6, _⟩ => ⟨S20x50, .f32⟩
  | .local _ .vmem, ⟨7, _⟩ => ⟨S50x1, .f32⟩
  | .local _ .vmem, ⟨8, _⟩ => ⟨S50x100, .f32⟩
  | .local _ .vmem, ⟨9, _⟩ => ⟨S1x100, .f32⟩
  | .local _ .vmem, ⟨10, _⟩ => ⟨S2x10, .f32⟩
  | .local _ .vmem, ⟨11, _⟩ => ⟨S10x1, .f32⟩
  | .local _ .vmem, ⟨12, _⟩ => ⟨S10x20, .f32⟩
  | .local _ .vmem, ⟨13, _⟩ => ⟨S20x1, .f32⟩
  | .local _ .vmem, ⟨14, _⟩ => ⟨S20x50, .f32⟩
  | .local _ .vmem, ⟨15, _⟩ => ⟨S50x1, .f32⟩
  | .local _ .vmem, ⟨16, _⟩ => ⟨S50x100, .f32⟩
  | .local _ .vmem, ⟨17, _⟩ => ⟨S1x100, .f32⟩
  | .local _ .vmem, ⟨18, _⟩ => ⟨S8192x100, .f32⟩
  | .local _ .vmem, ⟨19, _⟩ => ⟨S8192x100, .f32⟩
  | _, _ => ⟨S262144x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg17_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem17_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x10 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S10x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S10x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S20x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S50x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S50x100 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x100 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2x10 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S10x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S10x20 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S20x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S20x50 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S50x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S50x100 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S1x100 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 2 → Memref sig .tc .vmem S8192x100 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

class Facts₀ : Prop where
  transposes_S262144x2_S2x262144_1_0 : S262144x2.Transposes [1, 0] S2x262144
  shapeCasts_S10_S10x1 : S10.ShapeCasts S10x1
  shapeCasts_S20_S20x1 : S20.ShapeCasts S20x1
  shapeCasts_S50_S50x1 : S50.ShapeCasts S50x1
  shapeCasts_S100_S1x100 : S100.ShapeCasts S1x100
  inb_S2x8192_S2x8192_0_0 : ∀ a, (![0, 0] : Fin 2 → Nat) a + S2x8192.size a ≤ S2x8192.size a
  h_S2x8192 : 0 < S2x8192.numel
  shapeCasts_S2x8192_S2x8192 : S2x8192.ShapeCasts S2x8192
  inb_S2x10_S2x10_0_0 : ∀ a, (![0, 0] : Fin 2 → Nat) a + S2x10.size a ≤ S2x10.size a
  h_S2x10 : 0 < S2x10.numel
  inb_S10x1_S10x1_0_0 : ∀ a, (![0, 0] : Fin 2 → Nat) a + S10x1.size a ≤ S10x1.size a
  h_S10x1 : 0 < S10x1.numel
  shapeCasts_S10x1_S10x1 : S10x1.ShapeCasts S10x1
  inb_S10x20_S10x20_0_0 : ∀ a, (![0, 0] : Fin 2 → Nat) a + S10x20.size a ≤ S10x20.size a
  h_S10x20 : 0 < S10x20.numel
  inb_S20x1_S20x1_0_0 : ∀ a, (![0, 0] : Fin 2 → Nat) a + S20x1.size a ≤ S20x1.size a
  h_S20x1 : 0 < S20x1.numel
  shapeCasts_S20x1_S20x1 : S20x1.ShapeCasts S20x1
  inb_S20x50_S20x50_0_0 : ∀ a, (![0, 0] : Fin 2 → Nat) a + S20x50.size a ≤ S20x50.size a
  h_S20x50 : 0 < S20x50.numel
  inb_S50x1_S50x1_0_0 : ∀ a, (![0, 0] : Fin 2 → Nat) a + S50x1.size a ≤ S50x1.size a
  h_S50x1 : 0 < S50x1.numel
  shapeCasts_S50x1_S50x1 : S50x1.ShapeCasts S50x1
  inb_S50x100_S50x100_0_0 : ∀ a, (![0, 0] : Fin 2 → Nat) a + S50x100.size a ≤ S50x100.size a
  h_S50x100 : 0 < S50x100.numel
  inb_S1x100_S1x100_0_0 : ∀ a, (![0, 0] : Fin 2 → Nat) a + S1x100.size a ≤ S1x100.size a
  h_S1x100 : 0 < S1x100.numel
  shapeCasts_S1x100_S1x100 : S1x100.ShapeCasts S1x100
  broadcasts_S10x1_S10x8192 : S10x1.Broadcasts S10x8192
  broadcasts_S20x1_S20x8192 : S20x1.Broadcasts S20x8192
  broadcasts_S50x1_S50x8192 : S50x1.Broadcasts S50x8192
  broadcasts_S1x100_S8192x100 : S1x100.Broadcasts S8192x100
  inb_S8192x100_S8192x100_0_0 : ∀ a, (![0, 0] : Fin 2 → Nat) a + S8192x100.size a ≤ S8192x100.size a
  h_S8192x100 : 0 < S8192x100.numel
  dot_S2x10_S2x8192_S10x8192_0_0_1_1_n_n_wf : DotDims.WF S2x10 S2x8192 S10x8192 [0] [0] [1] [1] [] []
  dot_S10x20_S10x8192_S20x8192_0_0_1_1_n_n_wf : DotDims.WF S10x20 S10x8192 S20x8192 [0] [0] [1] [1] [] []
  dot_S20x50_S20x8192_S50x8192_0_0_1_1_n_n_wf : DotDims.WF S20x50 S20x8192 S50x8192 [0] [0] [1] [1] [] []
  dot_S50x8192_S50x100_S8192x100_0_0_1_1_n_n_wf : DotDims.WF S50x8192 S50x100 S8192x100 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x8192.size a ≤ S2x262144.size a
  hwx0_0 : ∀ i : grid0.Coords, EltTy.bits .f32 = 32 ∨ (Rect.block (s := S2x262144) S2x8192.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2x10.size a ≤ S2x10.size a
  hwx0_1 : ∀ i : grid0.Coords, EltTy.bits .f32 = 32 ∨ (Rect.block (s := S2x10) S2x10.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10x1.size a ≤ S10x1.size a
  hwx0_2 : ∀ i : grid0.Coords, EltTy.bits .f32 = 32 ∨ (Rect.block (s := S10x1) S10x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S10x20.size a ≤ S10x20.size a
  hwx0_3 : ∀ i : grid0.Coords, EltTy.bits .f32 = 32 ∨ (Rect.block (s := S10x20) S10x20.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S20x1.size a ≤ S20x1.size a
  hwx0_4 : ∀ i : grid0.Coords, EltTy.bits .f32 = 32 ∨ (Rect.block (s := S20x1) S20x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20x50.size a ≤ S20x50.size a
  hwx0_5 : ∀ i : grid0.Coords, EltTy.bits .f32 = 32 ∨ (Rect.block (s := S20x50) S20x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S50x1.size a ≤ S50x1.size a
  hwx0_6 : ∀ i : grid0.Coords, EltTy.bits .f32 = 32 ∨ (Rect.block (s := S50x1) S50x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S50x100.size a ≤ S50x100.size a
  hwx0_7 : ∀ i : grid0.Coords, EltTy.bits .f32 = 32 ∨ (Rect.block (s := S50x100) S50x100.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x100.size a ≤ S1x100.size a
  hwx0_8 : ∀ i : grid0.Coords, EltTy.bits .f32 = 32 ∨ (Rect.block (s := S1x100) S1x100.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S2x10.size a ≤ S2x10.size a
  hwx0_9 : ∀ i : grid0.Coords, EltTy.bits .f32 = 32 ∨ (Rect.block (s := S2x10) S2x10.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S10x1.size a ≤ S10x1.size a
  hwx0_10 : ∀ i : grid0.Coords, EltTy.bits .f32 = 32 ∨ (Rect.block (s := S10x1) S10x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S10x20.size a ≤ S10x20.size a
  hwx0_11 : ∀ i : grid0.Coords, EltTy.bits .f32 = 32 ∨ (Rect.block (s := S10x20) S10x20.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S20x1.size a ≤ S20x1.size a
  hwx0_12 : ∀ i : grid0.Coords, EltTy.bits .f32 = 32 ∨ (Rect.block (s := S20x1) S20x1.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S20x50.size a ≤ S20x50.size a
  hwx0_13 : ∀ i : grid0.Coords, EltTy.bits .f32 = 32 ∨ (Rect.block (s := S20x50) S20x50.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S50x1.size a ≤ S50x1.size a
  hwx0_14 : ∀ i : grid0.Coords, EltTy.bits .f32 = 32 ∨ (Rect.block (s := S50x1) S50x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S50x100.size a ≤ S50x100.size a
  hwx0_15 : ∀ i : grid0.Coords, EltTy.bits .f32 = 32 ∨ (Rect.block (s := S50x100) S50x100.size (cc0_transform_15 i) (hinb0_15 i)).WholeWords (EltTy.packing .f32)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S1x100.size a ≤ S1x100.size a
  hwx0_16 : ∀ i : grid0.Coords, EltTy.bits .f32 = 32 ∨ (Rect.block (s := S1x100) S1x100.size (cc0_transform_16 i) (hinb0_16 i)).WholeWords (EltTy.packing .f32)
  hstage0_17 : ∀ j, (stage0_17 j).IsWhole
  nbuf0_17 : grid0.bufCount reads0_17 false = 2
  hreads0_17 : ∀ i i' : grid0.Coords, (∀ a, reads0_17 a = true → i a = i' a) → cc0_transform_17 i = cc0_transform_17 i'
  hinb0_17 : ∀ (i : grid0.Coords) a, (cc0_transform_17 i a + 1) * S8192x100.size a ≤ S262144x100.size a
  hwx0_17 : ∀ i : grid0.Coords, EltTy.bits .f32 = 32 ∨ (Rect.block (s := S262144x100) S8192x100.size (cc0_transform_17 i) (hinb0_17 i)).WholeWords (EltTy.packing .f32)

variable [Facts₀]

def dot_S2x10_S2x8192_S10x8192_0_0_1_1_n_n : DotDims S2x10 S2x8192 S10x8192 where
  lhsContracting := [0]
  rhsContracting := [0]
  lhsNonContracting := [1]
  rhsNonContracting := [1]
  lhsBatch := []
  rhsBatch := []
  wf := dot_S2x10_S2x8192_S10x8192_0_0_1_1_n_n_wf
def dot_S10x20_S10x8192_S20x8192_0_0_1_1_n_n : DotDims S10x20 S10x8192 S20x8192 where
  lhsContracting := [0]
  rhsContracting := [0]
  lhsNonContracting := [1]
  rhsNonContracting := [1]
  lhsBatch := []
  rhsBatch := []
  wf := dot_S10x20_S10x8192_S20x8192_0_0_1_1_n_n_wf
def dot_S20x50_S20x8192_S50x8192_0_0_1_1_n_n : DotDims S20x50 S20x8192 S50x8192 where
  lhsContracting := [0]
  rhsContracting := [0]
  lhsNonContracting := [1]
  rhsNonContracting := [1]
  lhsBatch := []
  rhsBatch := []
  wf := dot_S20x50_S20x8192_S50x8192_0_0_1_1_n_n_wf
def dot_S50x8192_S50x100_S8192x100_0_0_1_1_n_n : DotDims S50x8192 S50x100 S8192x100 where
  lhsContracting := [0]
  rhsContracting := [0]
  lhsNonContracting := [1]
  rhsNonContracting := [1]
  lhsBatch := []
  rhsBatch := []
  wf := dot_S50x8192_S50x100_S8192x100_0_0_1_1_n_n_wf

abbrev win0_0 : Pipeline.Window sig grid0 :=
  Pipeline.Window.ofSpec (Memref.whole main_v0) S2x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2x10.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S10x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S10x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S20x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S20x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S50x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S50x100.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x100.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S2x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v5) S10x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S10x20.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v6) S20x1.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S20x50.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_v7) S50x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg15) S50x100.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v8) S1x100.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v9) S8192x100.size cc0_transform_17 reads0_17 true false 2 stage0_17 sem0_17
    hrank0 hreads0_17 hinb0_17 nbuf0_17 (Memref.isWhole_whole _) hwx0_17 hstage0_17

abbrev win0 : Fin 18 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | ⟨_ + 18, h⟩ => absurd h (Nat.not_lt.2 (Nat.le_add_left _ _))
abbrev spec0 : Fin 18 → Pipeline.WinSpec sig grid0.rank := fun w => (win0 w).toWinSpec

class Facts : Prop extends Facts₀ where

variable [Facts]
-- ==== ReferenceIdeal.lean ====
abbrev S262144x2 : Shape := ⟨2, ![262144, 2]⟩
abbrev S2x10 : Shape := ⟨2, ![2, 10]⟩
abbrev S10 : Shape := ⟨1, ![10]⟩
abbrev S10x20 : Shape := ⟨2, ![10, 20]⟩
abbrev S20 : Shape := ⟨1, ![20]⟩
abbrev S20x50 : Shape := ⟨2, ![20, 50]⟩
abbrev S50 : Shape := ⟨1, ![50]⟩
abbrev S50x100 : Shape := ⟨2, ![50, 100]⟩
abbrev S100 : Shape := ⟨1, ![100]⟩
abbrev S262144x10 : Shape := ⟨2, ![262144, 10]⟩
abbrev S1x10 : Shape := ⟨2, ![1, 10]⟩
abbrev S262144x20 : Shape := ⟨2, ![262144, 20]⟩
abbrev S1x20 : Shape := ⟨2, ![1, 20]⟩
abbrev S262144x50 : Shape := ⟨2, ![262144, 50]⟩
abbrev S1x50 : Shape := ⟨2, ![1, 50]⟩
abbrev S262144x100 : Shape := ⟨2, ![262144, 100]⟩
abbrev S1x100 : Shape := ⟨2, ![1, 100]⟩

abbrev nBuf : Space → Nat
  | .hbm => 58
  | .vmem => 0
  | .smem => 0
  | _ => 0

abbrev bufTy : (tb : Table) → Fin (tcTables nBuf tb) → BufTy
  | .hbm, ⟨0, _⟩ => ⟨S262144x2, .f32⟩
  | .hbm, ⟨1, _⟩ => ⟨S2x10, .f32⟩
  | .hbm, ⟨2, _⟩ => ⟨S10, .f32⟩
  | .hbm, ⟨3, _⟩ => ⟨S10x20, .f32⟩
  | .hbm, ⟨4, _⟩ => ⟨S20, .f32⟩
  | .hbm, ⟨5, _⟩ => ⟨S20x50, .f32⟩
  | .hbm, ⟨6, _⟩ => ⟨S50, .f32⟩
  | .hbm, ⟨7, _⟩ => ⟨S50x100, .f32⟩
  | .hbm, ⟨8, _⟩ => ⟨S100, .f32⟩
  | .hbm, ⟨9, _⟩ => ⟨S2x10, .f32⟩
  | .hbm, ⟨10, _⟩ => ⟨S10, .f32⟩
  | .hbm, ⟨11, _⟩ => ⟨S10x20, .f32⟩
  | .hbm, ⟨12, _⟩ => ⟨S20, .f32⟩
  | .hbm, ⟨13, _⟩ => ⟨S20x50, .f32⟩
  | .hbm, ⟨14, _⟩ => ⟨S50, .f32⟩
  | .hbm, ⟨15, _⟩ => ⟨S50x100, .f32⟩
  | .hbm, ⟨16, _⟩ => ⟨S100, .f32⟩
  | .hbm, ⟨17, _⟩ => ⟨S262144x10, .f32⟩
  | .hbm, ⟨18, _⟩ => ⟨S1x10, .f32⟩
  | .hbm, ⟨19, _⟩ => ⟨S262144x10, .f32⟩
  | .hbm, ⟨20, _⟩ => ⟨S262144x10, .f32⟩
  | .hbm, ⟨21, _⟩ => ⟨S262144x10, .f32⟩
  | .hbm, ⟨22, _⟩ => ⟨S262144x20, .f32⟩
  | .hbm, ⟨23, _⟩ => ⟨S1x20, .f32⟩
  | .hbm, ⟨24, _⟩ => ⟨S262144x20, .f32⟩
  | .hbm, ⟨25, _⟩ => ⟨S262144x20, .f32⟩
  | .hbm, ⟨26, _⟩ => ⟨S262144x20, .f32⟩
  | .hbm, ⟨27, _⟩ => ⟨S262144x50, .f32⟩
  | .hbm, ⟨28, _⟩ => ⟨S1x50, .f32⟩
  | .hbm, ⟨29, _⟩ => ⟨S262144x50, .f32⟩
  | .hbm, ⟨30, _⟩ => ⟨S262144x50, .f32⟩
  | .hbm, ⟨31, _⟩ => ⟨S262144x50, .f32⟩
  | .hbm, ⟨32, _⟩ => ⟨S262144x100, .f32⟩
  | .hbm, ⟨33, _⟩ => ⟨S1x100, .f32⟩
  | .hbm, ⟨34, _⟩ => ⟨S262144x100, .f32⟩
  | .hbm, ⟨35, _⟩ => ⟨S262144x100, .f32⟩
  | .hbm, ⟨36, _⟩ => ⟨S262144x100, .f32⟩
  | .hbm, ⟨37, _⟩ => ⟨S262144x10, .f32⟩
  | .hbm, ⟨38, _⟩ => ⟨S1x10, .f32⟩
  | .hbm, ⟨39, _⟩ => ⟨S262144x10, .f32⟩
  | .hbm, ⟨40, _⟩ => ⟨S262144x10, .f32⟩
  | .hbm, ⟨41, _⟩ => ⟨S262144x10, .f32⟩
  | .hbm, ⟨42, _⟩ => ⟨S262144x20, .f32⟩
  | .hbm, ⟨43, _⟩ => ⟨S1x20, .f32⟩
  | .hbm, ⟨44, _⟩ => ⟨S262144x20, .f32⟩
  | .hbm, ⟨45, _⟩ => ⟨S262144x20, .f32⟩
  | .hbm, ⟨46, _⟩ => ⟨S262144x20, .f32⟩
  | .hbm, ⟨47, _⟩ => ⟨S262144x50, .f32⟩
  | .hbm, ⟨48, _⟩ => ⟨S1x50, .f32⟩
  | .hbm, ⟨49, _⟩ => ⟨S262144x50, .f32⟩
  | .hbm, ⟨50, _⟩ => ⟨S262144x50, .f32⟩
  | .hbm, ⟨51, _⟩ => ⟨S262144x50, .f32⟩
  | .hbm, ⟨52, _⟩ => ⟨S262144x100, .f32⟩
  | .hbm, ⟨53, _⟩ => ⟨S1x100, .f32⟩
  | .hbm, ⟨54, _⟩ => ⟨S262144x100, .f32⟩
  | .hbm, ⟨55, _⟩ => ⟨S262144x100, .f32⟩
  | .hbm, ⟨56, _⟩ => ⟨S262144x100, .f32⟩
  | .hbm, ⟨57, _⟩ => ⟨S262144x100, .f32⟩
  | _, _ => ⟨S262144x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]

class Facts₀ : Prop where
  bcast_S10_S1x10_1 : S10.BroadcastsInDim S1x10 (![1] : Fin 1 → Fin S1x10.rank)
  bcast_S1x10_S262144x10_0_1 : S1x10.BroadcastsInDim S262144x10 (![0, 1] : Fin 2 → Fin S262144x10.rank)
  bcast_S20_S1x20_1 : S20.BroadcastsInDim S1x20 (![1] : Fin 1 → Fin S1x20.rank)
  bcast_S1x20_S262144x20_0_1 : S1x20.BroadcastsInDim S262144x20 (![0, 1] : Fin 2 → Fin S262144x20.rank)
  bcast_S50_S1x50_1 : S50.BroadcastsInDim S1x50 (![1] : Fin 1 → Fin S1x50.rank)
  bcast_S1x50_S262144x50_0_1 : S1x50.BroadcastsInDim S262144x50 (![0, 1] : Fin 2 → Fin S262144x50.rank)
  bcast_S100_S1x100_1 : S100.BroadcastsInDim S1x100 (![1] : Fin 1 → Fin S1x100.rank)
  bcast_S1x100_S262144x100_0_1 : S1x100.BroadcastsInDim S262144x100 (![0, 1] : Fin 2 → Fin S262144x100.rank)
  dot_S262144x2_S2x10_S262144x10_1_0_0_1_n_n_wf : DotDims.WF S262144x2 S2x10 S262144x10 [1] [0] [0] [1] [] []
  dot_S262144x10_S10x20_S262144x20_1_0_0_1_n_n_wf : DotDims.WF S262144x10 S10x20 S262144x20 [1] [0] [0] [1] [] []
  dot_S262144x20_S20x50_S262144x50_1_0_0_1_n_n_wf : DotDims.WF S262144x20 S20x50 S262144x50 [1] [0] [0] [1] [] []
  dot_S262144x50_S50x100_S262144x100_1_0_0_1_n_n_wf : DotDims.WF S262144x50 S50x100 S262144x100 [1] [0] [0] [1] [] []

variable [Facts₀]

def dot_S262144x2_S2x10_S262144x10_1_0_0_1_n_n : DotDims S262144x2 S2x10 S262144x10 where
  lhsContracting := [1]
  rhsContracting := [0]
  lhsNonContracting := [0]
  rhsNonContracting := [1]
  lhsBatch := []
  rhsBatch := []
  wf := dot_S262144x2_S2x10_S262144x10_1_0_0_1_n_n_wf
def dot_S262144x10_S10x20_S262144x20_1_0_0_1_n_n : DotDims S262144x10 S10x20 S262144x20 where
  lhsContracting := [1]
  rhsContracting := [0]
  lhsNonContracting := [0]
  rhsNonContracting := [1]
  lhsBatch := []
  rhsBatch := []
  wf := dot_S262144x10_S10x20_S262144x20_1_0_0_1_n_n_wf
def dot_S262144x20_S20x50_S262144x50_1_0_0_1_n_n : DotDims S262144x20 S20x50 S262144x50 where
  lhsContracting := [1]
  rhsContracting := [0]
  lhsNonContracting := [0]
  rhsNonContracting := [1]
  lhsBatch := []
  rhsBatch := []
  wf := dot_S262144x20_S20x50_S262144x50_1_0_0_1_n_n_wf
def dot_S262144x50_S50x100_S262144x100_1_0_0_1_n_n : DotDims S262144x50 S50x100 S262144x100 where
  lhsContracting := [1]
  rhsContracting := [0]
  lhsNonContracting := [0]
  rhsNonContracting := [1]
  lhsBatch := []
  rhsBatch := []
  wf := dot_S262144x50_S50x100_S262144x100_1_0_0_1_n_n_wf

class Facts : Prop extends Facts₀ where

variable [Facts]
-- ==== Proof.LibDotCols.lean ====
/-
  A matrix product whose two operands are both contracted on their FIRST axis, read at an entry.

  For a `K × A` array `l` and a `K × B` array `r`, the product into a zero accumulator that contracts axis 0 of
  both (`lᵀ r`, an `A × B` array) is, at the exact values, the plain sum at every entry:
  `(lᵀ r)(a, b) = Σ_k l(k, a) · r(k, b)` (`matmul_cols_apply`).  No order of summation and no rounding is left in
  it, so nothing about the entries (finiteness included) is assumed.
-/
import Idealize.ShloMosaic.Lib.ValueIdx
import Idealize.ShloMosaic.PureOps.Ideal.Laws

noncomputable section

open scoped BigOperators

namespace Cert.Lib.DotCols

open Idealize.ShloMosaic Idealize.ShloMosaic.ValueIdx

variable {K A B : Nat} {φ₁ φ₂ : FTy}

/-- `lᵀ r` at `(a, b)`: the dimension numbers contract axis 0 of the left operand with axis 0 of the right one, keep
    axis 1 of each, and have no batch axis; the accumulator is the zero word. -/
theorem matmul_cols_apply (D : DotDims ⟨2, ![K, A]⟩ ⟨2, ![K, B]⟩ ⟨2, ![A, B]⟩)
    (hlc : D.lhsContracting = [0]) (hrc : D.rhsContracting = [0])
    (hln : D.lhsNonContracting = [1]) (hrn : D.rhsNonContracting = [1])
    (hlb : D.lhsBatch = []) (hrb : D.rhsBatch = [])
    (prec : Option ContractPrecision) (l : FVec Ideal ⟨2, ![K, A]⟩ φ₁) (r : FVec Ideal ⟨2, ![K, B]⟩ φ₂)
    (a : Fin A) (b : Fin B) :
    matmul D prec l r (constant ⟨2, ![A, B]⟩ .f32 0x00000000#32) (ix2 a b) = ∑ k : Fin K, l (ix2 k a) * r (ix2 k b) := by
  obtain ⟨lc, rc, ln, rn, lb, rb, wf⟩ := D
  dsimp only at hlc hrc hln hrn hlb hrb
  subst hlc hrc hln hrn hlb hrb
  simp only [matmul]
  rw [Ideal.matmul_constant_zero_apply, ← Equiv.sum_comp (contrEquiv1 _ K rfl rfl).symm]
  refine Finset.sum_congr rfl fun k _ => ?_
  have hk := contrEquiv1_symm_val (⟨[0], [0], [1], [1], [], [], wf⟩ : DotDims ⟨2, ![K, A]⟩ ⟨2, ![K, B]⟩ ⟨2, ![A, B]⟩) K rfl rfl k
  have el : DotDims.lhsIdx (⟨[0], [0], [1], [1], [], [], wf⟩ : DotDims ⟨2, ![K, A]⟩ ⟨2, ![K, B]⟩ ⟨2, ![A, B]⟩) (ix2 a b)
      ((contrEquiv1 _ K rfl rfl).symm k) = ix2 k a := funext fun c => Fin.ext (by
    match c with
    | ⟨0, _⟩ => exact (DotDims.lhsIdx_val_of_single _ rfl _ _).trans hk
    | ⟨1, _⟩ =>
      unfold DotDims.lhsIdx
      rw [dif_neg (by exact List.not_mem_nil), dif_pos (by exact List.mem_singleton.mpr rfl)]
      rfl)
  have er : DotDims.rhsIdx (⟨[0], [0], [1], [1], [], [], wf⟩ : DotDims ⟨2, ![K, A]⟩ ⟨2, ![K, B]⟩ ⟨2, ![A, B]⟩) (ix2 a b)
      ((contrEquiv1 _ K rfl rfl).symm k) = ix2 k b := funext fun c => Fin.ext (by
    match c with
    | ⟨0, _⟩ => exact (DotDims.rhsIdx_val_of_single _ rfl _ _).trans hk
    | ⟨1, _⟩ =>
      unfold DotDims.rhsIdx
      rw [dif_neg (by exact List.not_mem_nil), dif_pos (by exact List.mem_singleton.mpr rfl)]
      rfl)
  rw [el, er]

end Cert.Lib.DotCols

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibDenseCols.lean ====
/-
  A dense layer followed by tanh, on one row, and the two ways a program that keeps its activations TRANSPOSED
  (feature-major: one column per sample) spells it.

  For a row `h` of `K` features, a `K × N` weight `W` and a bias `b`, the layer is
  `layer h W b j = tanh (Σ_k h k · W k j + b j)` on the extended reals.

  * `layer_cols_apply`: with the activations held as a `K × P` array `hT` (sample `p` is column `p`), the product
    `Wᵀ hT` (both operands contracted on their first axis) plus an `N × 1` bias column repeated along the `P` columns,
    then tanh, is at `(j, p)` the layer of column `p` at `j`. The only law used is commutativity of the product
    inside the sum, so no entry need be finite.
  * `layer_rows_apply`: the same activations flipped back, `hTᵀ W` plus a `1 × N` bias row repeated down the `P` rows,
    then tanh, is at `(p, j)` the layer of column `p` at `j` — the very sum, factor for factor.
-/
import Idealize.ShloMosaic.Lib.ValueIdx
import Idealize.ShloMosaic.Lib.ValueLayout
import Idealize.ShloMosaic.PureOps.Ideal.Laws
import proofs.«150617_j48163763257556_2_alg».proof.Proof.LibDotCols
import proofs.«150617_j48163763257556_2_alg».proof.Proof.LibColumn

noncomputable section

open scoped BigOperators

namespace Cert.Lib.DenseCols

open Idealize.ShloMosaic Idealize.ShloMosaic.ValueIdx

/-- One dense layer followed by tanh, on one row of `K` features: `tanh (Σ_k h k · W k j + b j)`. -/
def layer {K N : Nat} (h : Fin K → EReal) (W : Fin K → Fin N → EReal) (b : Fin N → EReal) (j : Fin N) : EReal :=
  Ideal.tanh (∑ k : Fin K, h k * W k j + b j)

variable {K N P : Nat}

/-- Feature-major spelling: `tanh (Wᵀ hT + bias column)` at `(j, p)` is the layer of sample `p`'s column. -/
theorem layer_cols_apply (D : DotDims ⟨2, ![K, N]⟩ ⟨2, ![K, P]⟩ ⟨2, ![N, P]⟩)
    (hlc : D.lhsContracting = [0]) (hrc : D.rhsContracting = [0])
    (hln : D.lhsNonContracting = [1]) (hrn : D.rhsNonContracting = [1])
    (hlb : D.lhsBatch = []) (hrb : D.rhsBatch = [])
    (prec : Option ContractPrecision)
    (W : FVec Ideal ⟨2, ![K, N]⟩ .f32) (hT : FVec Ideal ⟨2, ![K, P]⟩ .f32) (bc : FVec Ideal ⟨2, ![N, 1]⟩ .f32)
    (hb : (⟨2, ![N, 1]⟩ : Shape).Broadcasts ⟨2, ![N, P]⟩) (j : Fin N) (p : Fin P) :
    tanh (addf (matmul D prec W hT (constant ⟨2, ![N, P]⟩ .f32 0x00000000#32)) (broadcastTo ⟨2, ![N, P]⟩ bc hb)) (ix2 j p)
      = layer (fun k => hT (ix2 k p)) (fun k j => W (ix2 k j)) (fun j => bc (ix2 j (0 : Fin 1))) j := by
  show Ideal.tanh (matmul D prec W hT (constant ⟨2, ![N, P]⟩ .f32 0x00000000#32) (ix2 j p)
    + broadcastTo ⟨2, ![N, P]⟩ bc hb (ix2 j p)) = _
  rw [Cert.Lib.DotCols.matmul_cols_apply D hlc hrc hln hrn hlb hrb, Cert.Lib.Column.colBroadcast_apply]
  unfold layer
  exact congrArg (fun s => Ideal.tanh (s + bc (ix2 j (0 : Fin 1)))) (Finset.sum_congr rfl fun k _ => mul_comm _ _)

/-- Flipped back to sample-major: `tanh (hTᵀ W + bias row)` at `(p, j)` is the layer of sample `p`'s column. -/
theorem layer_rows_apply (D : DotDims ⟨2, ![K, P]⟩ ⟨2, ![K, N]⟩ ⟨2, ![P, N]⟩)
    (hlc : D.lhsContracting = [0]) (hrc : D.rhsContracting = [0])
    (hln : D.lhsNonContracting = [1]) (hrn : D.rhsNonContracting = [1])
    (hlb : D.lhsBatch = []) (hrb : D.rhsBatch = [])
    (prec : Option ContractPrecision)
    (hT : FVec Ideal ⟨2, ![K, P]⟩ .f32) (W : FVec Ideal ⟨2, ![K, N]⟩ .f32) (br : FVec Ideal ⟨2, ![1, N]⟩ .f32)
    (hb : (⟨2, ![1, N]⟩ : Shape).Broadcasts ⟨2, ![P, N]⟩) (p : Fin P) (j : Fin N) :
    tanh (addf (matmul D prec hT W (constant ⟨2, ![P, N]⟩ .f32 0x00000000#32)) (broadcastTo ⟨2, ![P, N]⟩ br hb)) (ix2 p j)
      = layer (fun k => hT (ix2 k p)) (fun k j => W (ix2 k j)) (fun j => br (ix2 (0 : Fin 1) j)) j := by
  show Ideal.tanh (matmul D prec hT W (constant ⟨2, ![P, N]⟩ .f32 0x00000000#32) (ix2 p j)
    + broadcastTo ⟨2, ![P, N]⟩ br hb (ix2 p j)) = _
  rw [Cert.Lib.DotCols.matmul_cols_apply D hlc hrc hln hrn hlb hrb, broadcastTo_1b_ab_apply]
  rfl

end Cert.Lib.DenseCols

end
-- ==== Proof.Decoder.lean ====
/-
  The function both programs compute: two towers of four dense layers with tanh, applied to the same row of two
  features, and added.

  A tower's parameters are four weights and four biases (`Params`); on a row `x` it is
  `tower P x = layer (layer (layer (layer x W1 b1) W2 b2) W3 b3) W4 b4`, a row of 100 entries. The result array has
  one row per row of `x`: entry `(r, j)` is the first tower of row `r` at `j` plus the second tower of row `r` at `j`
  (`decoder`). Everything is on the extended reals; nothing here needs an entry to be finite.
-/
import proofs.«150617_j48163763257556_2_alg».proof.Proof.LibDenseCols

noncomputable section

namespace Cert.Decoder

open Idealize.ShloMosaic Idealize.ShloMosaic.ValueIdx Cert.Lib.DenseCols

/-- One tower's parameters, as plain functions of feature indices. -/
structure Params where
  W1 : Fin 2 → Fin 10 → EReal
  b1 : Fin 10 → EReal
  W2 : Fin 10 → Fin 20 → EReal
  b2 : Fin 20 → EReal
  W3 : Fin 20 → Fin 50 → EReal
  b3 : Fin 50 → EReal
  W4 : Fin 50 → Fin 100 → EReal
  b4 : Fin 100 → EReal

/-- One tower on one row: four layers, 2 → 10 → 20 → 50 → 100 features. -/
def tower (P : Params) (x : Fin 2 → EReal) : Fin 100 → EReal :=
  layer (layer (layer (layer x P.W1 P.b1) P.W2 P.b2) P.W3 P.b3) P.W4 P.b4

/-- A tower's parameters read off the arrays the caller passes: weights `K × N`, biases vectors of length `N`. -/
def params (W1 : FVec Ideal ⟨2, ![2, 10]⟩ .f32) (b1 : FVec Ideal ⟨1, ![10]⟩ .f32)
    (W2 : FVec Ideal ⟨2, ![10, 20]⟩ .f32) (b2 : FVec Ideal ⟨1, ![20]⟩ .f32)
    (W3 : FVec Ideal ⟨2, ![20, 50]⟩ .f32) (b3 : FVec Ideal ⟨1, ![50]⟩ .f32)
    (W4 : FVec Ideal ⟨2, ![50, 100]⟩ .f32) (b4 : FVec Ideal ⟨1, ![100]⟩ .f32) : Params where
  W1 k j := W1 (ix2 k j)
  b1 j := b1 (ix1 j)
  W2 k j := W2 (ix2 k j)
  b2 j := b2 (ix1 j)
  W3 k j := W3 (ix2 k j)
  b3 j := b3 (ix1 j)
  W4 k j := W4 (ix2 k j)
  b4 j := b4 (ix1 j)

/-- Entry `(r, j)` of the result: the two towers of row `r` of `x`, added. -/
def decoderAt (x : FVec Ideal ⟨2, ![262144, 2]⟩ .f32) (mu sg : Params) (r : Fin 262144) (j : Fin 100) : EReal :=
  tower mu (fun k => x (ix2 r k)) j + tower sg (fun k => x (ix2 r k)) j

/-- The result array. -/
def decoder (x : FVec Ideal ⟨2, ![262144, 2]⟩ .f32) (mu sg : Params) : FVec Ideal ⟨2, ![262144, 100]⟩ .f32 :=
  fun i => decoderAt x mu sg (i 0) (i 1)

theorem decoder_apply (x : FVec Ideal ⟨2, ![262144, 2]⟩ .f32) (mu sg : Params) (r : Fin 262144) (j : Fin 100) :
    decoder x mu sg (ix2 r j) = decoderAt x mu sg r j := rfl

end Cert.Decoder

end
-- ==== Proof.Body.lean ====
/-
  What the kernel's body leaves in its output block, entry by entry.

  The body sees one block of 8192 samples, held feature-major: `x` is a `2 × 8192` block, sample `p` its column `p`.
  Each tower runs three layers in that layout — `Wᵀ h` plus the bias as a column repeated along the samples, then
  tanh — and a fourth that flips back to one row per sample: `hᵀ W` plus the bias as a row repeated down the samples,
  then tanh. So entry `(p, j)` of a tower's result is the `tower` of sample `p`'s column at `j`, with the biases read
  where the block holds them (`blockParams`), and the stored block is the sum of the two towers.
-/
import proofs.«150617_j48163763257556_2_alg».proof.Proof.Gen.KernelIdeal.Frame
import proofs.«150617_j48163763257556_2_alg».proof.Proof.Decoder
import Idealize.ShloMosaic.Lib.Pipeline.Value

noncomputable section

namespace Cert.Decoder.Body

open Cert.KernelIdeal Cert.KernelIdeal.Gen Idealize.ShloMosaic Idealize.ShloMosaic.ValueIdx
open Cert.Lib.DenseCols Cert.Decoder

/-- A tower's parameters as the body finds them in its blocks: the weights as they are, the biases of layers 1–3 as
    `N × 1` columns and the bias of layer 4 as a `1 × 100` row. -/
def blockParams (w1 : Vec Ideal S2x10 .f32) (b1 : Vec Ideal S10x1 .f32) (w2 : Vec Ideal S10x20 .f32) (b2 : Vec Ideal S20x1 .f32)
    (w3 : Vec Ideal S20x50 .f32) (b3 : Vec Ideal S50x1 .f32) (w4 : Vec Ideal S50x100 .f32) (b4 : Vec Ideal S1x100 .f32) : Params where
  W1 k j := w1 (ix2 k j)
  b1 j := b1 (ix2 j (0 : Fin 1))
  W2 k j := w2 (ix2 k j)
  b2 j := b2 (ix2 j (0 : Fin 1))
  W3 k j := w3 (ix2 k j)
  b3 j := b3 (ix2 j (0 : Fin 1))
  W4 k j := w4 (ix2 k j)
  b4 j := b4 (ix2 (0 : Fin 1) j)

/-- The first tower's value in the body, at `(p, j)`: the tower of sample `p`'s column. -/
theorem first_tower_apply (v0 : Vec Ideal S2x8192 .f32) (v2 : Vec Ideal S2x10 .f32) (v3 : Vec Ideal S10x1 .f32)
    (v5 : Vec Ideal S10x20 .f32) (v6 : Vec Ideal S20x1 .f32) (v8 : Vec Ideal S20x50 .f32) (v9 : Vec Ideal S50x1 .f32)
    (v11 : Vec Ideal S50x100 .f32) (v12 : Vec Ideal S1x100 .f32) (p : Fin 8192) (j : Fin 100) :
    k0_pay3 (F := Ideal) v0 v2 v3 v5 v6 v8 v9 v11 v12 (ix2 p j)
      = tower (blockParams v2 v3 v5 v6 v8 v9 v11 v12) (fun k => v0 (ix2 k p)) j := by
  unfold k0_pay3 k0_pay2
  simp only [shapeCast_self]
  simp only [layer_rows_apply dot_S50x8192_S50x100_S8192x100_0_0_1_1_n_n rfl rfl rfl rfl rfl rfl,
    layer_cols_apply dot_S20x50_S20x8192_S50x8192_0_0_1_1_n_n rfl rfl rfl rfl rfl rfl,
    layer_cols_apply dot_S10x20_S10x8192_S20x8192_0_0_1_1_n_n rfl rfl rfl rfl rfl rfl,
    layer_cols_apply dot_S2x10_S2x8192_S10x8192_0_0_1_1_n_n rfl rfl rfl rfl rfl rfl]
  rfl

/-- The stored value at `(p, j)`: the first tower's value there plus the second tower of sample `p`'s column. -/
theorem stored_apply (v1 : FVec Ideal S2x8192 .f32) (v29 : FVec Ideal S8192x100 .f32) (v30 : Vec Ideal S2x10 .f32)
    (v32 : FVec Ideal S10x1 .f32) (v33 : Vec Ideal S10x20 .f32) (v34 : Vec Ideal S20x1 .f32) (v36 : Vec Ideal S20x50 .f32)
    (v37 : Vec Ideal S50x1 .f32) (v39 : Vec Ideal S50x100 .f32) (v40 : Vec Ideal S1x100 .f32) (p : Fin 8192) (j : Fin 100) :
    k0_pay1 (F := Ideal) v1 v29 v30 v32 v33 v34 v36 v37 v39 v40 (ix2 p j)
      = v29 (ix2 p j) + tower (blockParams v30 v32 v33 v34 v36 v37 v39 v40) (fun k => v1 (ix2 k p)) j := by
  unfold k0_pay1
  simp only [shapeCast_self]
  rw [addf_apply]
  simp only [layer_rows_apply dot_S50x8192_S50x100_S8192x100_0_0_1_1_n_n rfl rfl rfl rfl rfl rfl,
    layer_cols_apply dot_S20x50_S20x8192_S50x8192_0_0_1_1_n_n rfl rfl rfl rfl rfl rfl,
    layer_cols_apply dot_S10x20_S10x8192_S20x8192_0_0_1_1_n_n rfl rfl rfl rfl rfl rfl,
    layer_cols_apply dot_S2x10_S2x8192_S10x8192_0_0_1_1_n_n rfl rfl rfl rfl rfl rfl]
  rfl

theorem zero_off : (![0, 0] : Fin 2 → Nat) = fun _ => 0 := funext fun a => by fin_cases a <;> rfl

/-- The output block after the body, at `(p, j)`: the two towers of sample `p`'s column of the `x` block, added. -/
theorem out_apply (x0 : Vec Ideal S2x8192 .f32) (x1 : Vec Ideal S2x10 .f32) (x2 : Vec Ideal S10x1 .f32)
    (x3 : Vec Ideal S10x20 .f32) (x4 : Vec Ideal S20x1 .f32) (x5 : Vec Ideal S20x50 .f32) (x6 : Vec Ideal S50x1 .f32)
    (x7 : Vec Ideal S50x100 .f32) (x8 : Vec Ideal S1x100 .f32) (x9 : Vec Ideal S2x10 .f32) (x10 : Vec Ideal S10x1 .f32)
    (x11 : Vec Ideal S10x20 .f32) (x12 : Vec Ideal S20x1 .f32) (x13 : Vec Ideal S20x50 .f32) (x14 : Vec Ideal S50x1 .f32)
    (x15 : Vec Ideal S50x100 .f32) (x16 : Vec Ideal S1x100 .f32) (p : Fin 8192) (j : Fin 100) :
    out0_17 (F := Ideal) x0 x1 x2 x3 x4 x5 x6 x7 x8 x9 x10 x11 x12 x13 x14 x15 x16 (ix2 p j)
      = tower (blockParams x1 x2 x3 x4 x5 x6 x7 x8) (fun k => x0 (ix2 k p)) j
        + tower (blockParams x9 x10 x11 x12 x13 x14 x15 x16) (fun k => x0 (ix2 k p)) j := by
  unfold out0_17
  rw [View.canon_unit_zero zero_off]
  simp only [View.ld_unit_zero (S := S2x8192) zero_off, View.ld_unit_zero (S := S2x10) zero_off,
    View.ld_unit_zero (S := S10x1) zero_off, View.ld_unit_zero (S := S10x20) zero_off,
    View.ld_unit_zero (S := S20x1) zero_off, View.ld_unit_zero (S := S20x50) zero_off,
    View.ld_unit_zero (S := S50x1) zero_off, View.ld_unit_zero (S := S50x100) zero_off,
    View.ld_unit_zero (S := S1x100) zero_off]
  rw [stored_apply, first_tower_apply]
  unfold k0_pay2 k0_pay4
  simp only [shapeCast_self]

end Cert.Decoder.Body

end
-- ==== Proof.KernelValue.lean ====
/-
  From blocks to the array: what the kernel's result array holds after the run.

  The grid has 32 points; point `t` works on samples `8192·t … 8192·t + 8191`. Before the region the host transposes
  `x` (so the `x` window's block at `t` is columns `8192·t …` of `xᵀ`, that is rows `8192·t …` of `x`), and recasts each
  bias as a column (layers 1–3) or a row (layer 4); the sixteen parameter windows hold their whole arrays at every
  point. So the block point `t` writes back is block `t` — rows `8192·t …` — of the `decoder` of the arguments, the 32
  blocks tile the result array, and the array ends as the `decoder`.
-/
import proofs.«150617_j48163763257556_2_alg».proof.Proof.Gen.KernelIdeal.Value
import proofs.«150617_j48163763257556_2_alg».proof.Proof.Body
import Idealize.ShloMosaic.Lib.Pipeline.Value
import Idealize.ShloMosaic.Lib.ValueLayout
import Idealize.ShloMosaic.Lib.StableHlo.Run

noncomputable section

namespace Cert.Decoder.Kernel

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.Lib.DenseCols Cert.Decoder Cert.Decoder.Body

variable (m : (ℓ : Loc nD τ sig) → Buf (Elt Ideal) ℓ) (ρ : Dev nD → PrngReg)

/-! ## The arrays the host writes before the region -/

/-- The `x` window's array: `x` transposed. -/
theorem V_xt (c : Dev nD) : (V m c main_v0 : S2x262144.Idx → EReal)
    = transpose S2x262144 [1, 0] (m ((c : Thread nD τ).loc main_arg0)) transposes_S262144x2_S2x262144_1_0 := by
  dsimp only [Gen.V, Gen.hostOps0]; after_results

/-- The first tower's layer-1 bias, recast as a column. -/
theorem V_col1 (c : Dev nD) : (V m c main_v1 : S10x1.Idx → EReal)
    = shapeCast S10x1 (m ((c : Thread nD τ).loc main_arg2)) shapeCasts_S10_S10x1 := by
  dsimp only [Gen.V, Gen.hostOps0]; after_results; rfl

/-- The first tower's layer-4 bias, recast as a row. -/
theorem V_row4 (c : Dev nD) : (V m c main_v4 : S1x100.Idx → EReal)
    = shapeCast S1x100 (m ((c : Thread nD τ).loc main_arg8)) shapeCasts_S100_S1x100 := by
  dsimp only [Gen.V, Gen.hostOps0]; after_results; rfl

/-- The first tower's layer-2 bias, recast as a column. -/
theorem V_col2 (c : Dev nD) : (V m c main_v2 : S20x1.Idx → EReal)
    = shapeCast S20x1 (m ((c : Thread nD τ).loc main_arg4)) shapeCasts_S20_S20x1 := by
  dsimp only [Gen.V, Gen.hostOps0]; after_results; rfl

/-- The first tower's layer-3 bias, recast as a column. -/
theorem V_col3 (c : Dev nD) : (V m c main_v3 : S50x1.Idx → EReal)
    = shapeCast S50x1 (m ((c : Thread nD τ).loc main_arg6)) shapeCasts_S50_S50x1 := by
  dsimp only [Gen.V, Gen.hostOps0]; after_results; rfl

/-- The second tower's layer-1 bias, recast as a column. -/
theorem V_col5 (c : Dev nD) : (V m c main_v5 : S10x1.Idx → EReal)
    = shapeCast S10x1 (m ((c : Thread nD τ).loc main_arg10)) shapeCasts_S10_S10x1 := by
  dsimp only [Gen.V, Gen.hostOps0]; after_results; rfl

/-- The second tower's layer-2 bias, recast as a column. -/
theorem V_col6 (c : Dev nD) : (V m c main_v6 : S20x1.Idx → EReal)
    = shapeCast S20x1 (m ((c : Thread nD τ).loc main_arg12)) shapeCasts_S20_S20x1 := by
  dsimp only [Gen.V, Gen.hostOps0]; after_results; rfl

/-- The second tower's layer-3 bias, recast as a column. -/
theorem V_col7 (c : Dev nD) : (V m c main_v7 : S50x1.Idx → EReal)
    = shapeCast S50x1 (m ((c : Thread nD τ).loc main_arg14)) shapeCasts_S50_S50x1 := by
  dsimp only [Gen.V, Gen.hostOps0]; after_results; rfl

/-- The second tower's layer-4 bias, recast as a row. -/
theorem V_row8 (c : Dev nD) : (V m c main_v8 : S1x100.Idx → EReal)
    = shapeCast S1x100 (m ((c : Thread nD τ).loc main_arg16)) shapeCasts_S100_S1x100 := by
  dsimp only [Gen.V, Gen.hostOps0]; after_results; rfl

/-! ## The index maps, decided over the 32 points -/

/-- The `x` window moves along the samples with the point; the output window moves down the rows with it. -/
theorem idx_moving : ∀ t : Fin cfg0.N,
    win0_0.index t (0 : Fin 2) = 0 ∧ win0_0.index t (1 : Fin 2) = t.val
    ∧ win0_17.index t (0 : Fin 2) = t.val ∧ win0_17.index t (1 : Fin 2) = 0 :=
  (by decide +kernel : ∀ t : Fin grid0.N, _)

/-- A parameter window's block is its whole array at every point. -/
theorem idx_resident : ∀ t : Fin cfg0.N,
    (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = 0 ∧ win0_11.index t (1 : Fin 2) = 0)
    ∧ (win0_12.index t (0 : Fin 2) = 0 ∧ win0_12.index t (1 : Fin 2) = 0)
    ∧ (win0_13.index t (0 : Fin 2) = 0 ∧ win0_13.index t (1 : Fin 2) = 0)
    ∧ (win0_14.index t (0 : Fin 2) = 0 ∧ win0_14.index t (1 : Fin 2) = 0)
    ∧ (win0_15.index t (0 : Fin 2) = 0 ∧ win0_15.index t (1 : Fin 2) = 0)
    ∧ (win0_16.index t (0 : Fin 2) = 0 ∧ win0_16.index t (1 : Fin 2) = 0) :=
  (by decide +kernel : ∀ t : Fin grid0.N, _)

/-! ## Each input window's block, read at an entry -/

/-- Sample `p` of the block at point `t` is row `8192·t + p` of `x`. -/
theorem blk_x (c : Dev nD) (t : Fin cfg0.N) (k : Fin 2) (p : Fin 8192) (r : Fin 262144) (hr : r.val = t.val * 8192 + p.val) :
    iblk m c 0 t (ix2 k p) = m ((c : Thread nD τ).loc main_arg0) (ix2 r k) := by
  show V m c main_v0 (((cfg0.win 0).blk t).view.emb (ix2 k p)) = _
  have he : ((cfg0.win 0).blk t).view.emb (ix2 k p) = ix2 k r := by
    obtain ⟨e0, e1, -, -⟩ := idx_moving t
    funext a; apply Fin.ext
    match a with
    | ⟨0, _⟩ => show win0_0.index t (0 : Fin 2) * 2 + 1 * k.val = k.val; omega
    | ⟨1, _⟩ => show win0_0.index t (1 : Fin 2) * 8192 + 1 * p.val = r.val; omega
  rw [he, V_xt]
  exact transpose_ix2_apply _ _ k r

/-- A weight window's block is the weight. -/
theorem blk1 (c : Dev nD) (t : Fin cfg0.N) (k : Fin 2) (j : Fin 10) :
    iblk m c 1 t (ix2 k j) = m ((c : Thread nD τ).loc main_arg1) (ix2 k j) := by
  show V m c main_arg1 (((cfg0.win 1).blk t).view.emb (ix2 k j)) = _
  have he : ((cfg0.win 1).blk t).view.emb (ix2 k j) = ix2 k j := by
    obtain ⟨e0, e1⟩ := (idx_resident t).1
    funext a; apply Fin.ext
    match a with
    | ⟨0, _⟩ => show win0_1.index t (0 : Fin 2) * 2 + 1 * k.val = k.val; omega
    | ⟨1, _⟩ => show win0_1.index t (1 : Fin 2) * 10 + 1 * j.val = j.val; omega
  rw [he, V_main_arg1]

/-- A bias-column window's block at `(j, 0)` is the bias at `j`. -/
theorem blk2 (c : Dev nD) (t : Fin cfg0.N) (j : Fin 10) :
    iblk m c 2 t (ix2 j (0 : Fin 1)) = m ((c : Thread nD τ).loc main_arg2) (ix1 j) := by
  show V m c main_v1 (((cfg0.win 2).blk t).view.emb (ix2 j (0 : Fin 1))) = _
  have he : ((cfg0.win 2).blk t).view.emb (ix2 j (0 : Fin 1)) = ix2 j (0 : Fin 1) := by
    obtain ⟨e0, e1⟩ := (idx_resident t).2.1
    funext a; apply Fin.ext
    match a with
    | ⟨0, _⟩ => show win0_2.index t (0 : Fin 2) * 10 + 1 * j.val = j.val; omega
    | ⟨1, _⟩ => show win0_2.index t (1 : Fin 2) * 1 + 1 * 0 = 0; omega
  rw [he, V_col1]
  exact Cert.Lib.Column.col_apply _ _ j

/-- The bias-row window's block at `(0, j)` is the bias at `j`. -/
theorem blk8 (c : Dev nD) (t : Fin cfg0.N) (j : Fin 100) :
    iblk m c 8 t (ix2 (0 : Fin 1) j) = m ((c : Thread nD τ).loc main_arg8) (ix1 j) := by
  show V m c main_v4 (((cfg0.win 8).blk t).view.emb (ix2 (0 : Fin 1) j)) = _
  have he : ((cfg0.win 8).blk t).view.emb (ix2 (0 : Fin 1) j) = ix2 (0 : Fin 1) j := by
    obtain ⟨e0, e1⟩ := (idx_resident t).2.2.2.2.2.2.2.1
    funext a; apply Fin.ext
    match a with
    | ⟨0, _⟩ => show win0_8.index t (0 : Fin 2) * 1 + 1 * 0 = 0; omega
    | ⟨1, _⟩ => show win0_8.index t (1 : Fin 2) * 100 + 1 * j.val = j.val; omega
  rw [he, V_row4]
  exact shapeCast_a_1a_apply _ _ (0 : Fin 1) j

theorem blk3 (c : Dev nD) (t : Fin cfg0.N) (k : Fin 10) (j : Fin 20) :
    iblk m c 3 t (ix2 k j) = m ((c : Thread nD τ).loc main_arg3) (ix2 k j) := by
  show V m c main_arg3 (((cfg0.win 3).blk t).view.emb (ix2 k j)) = _
  have he : ((cfg0.win 3).blk t).view.emb (ix2 k j) = ix2 k j := by
    obtain ⟨e0, e1⟩ := (idx_resident t).2.2.1
    funext a; apply Fin.ext
    match a with
    | ⟨0, _⟩ => show win0_3.index t (0 : Fin 2) * 10 + 1 * k.val = k.val; omega
    | ⟨1, _⟩ => show win0_3.index t (1 : Fin 2) * 20 + 1 * j.val = j.val; omega
  rw [he, V_main_arg3]

theorem blk4 (c : Dev nD) (t : Fin cfg0.N) (j : Fin 20) :
    iblk m c 4 t (ix2 j (0 : Fin 1)) = m ((c : Thread nD τ).loc main_arg4) (ix1 j) := by
  show V m c main_v2 (((cfg0.win 4).blk t).view.emb (ix2 j (0 : Fin 1))) = _
  have he : ((cfg0.win 4).blk t).view.emb (ix2 j (0 : Fin 1)) = ix2 j (0 : Fin 1) := by
    obtain ⟨e0, e1⟩ := (idx_resident t).2.2.2.1
    funext a; apply Fin.ext
    match a with
    | ⟨0, _⟩ => show win0_4.index t (0 : Fin 2) * 20 + 1 * j.val = j.val; omega
    | ⟨1, _⟩ => show win0_4.index t (1 : Fin 2) * 1 + 1 * 0 = 0; omega
  rw [he, V_col2]
  exact Cert.Lib.Column.col_apply _ _ j

theorem blk5 (c : Dev nD) (t : Fin cfg0.N) (k : Fin 20) (j : Fin 50) :
    iblk m c 5 t (ix2 k j) = m ((c : Thread nD τ).loc main_arg5) (ix2 k j) := by
  show V m c main_arg5 (((cfg0.win 5).blk t).view.emb (ix2 k j)) = _
  have he : ((cfg0.win 5).blk t).view.emb (ix2 k j) = ix2 k j := by
    obtain ⟨e0, e1⟩ := (idx_resident t).2.2.2.2.1
    funext a; apply Fin.ext
    match a with
    | ⟨0, _⟩ => show win0_5.index t (0 : Fin 2) * 20 + 1 * k.val = k.val; omega
    | ⟨1, _⟩ => show win0_5.index t (1 : Fin 2) * 50 + 1 * j.val = j.val; omega
  rw [he, V_main_arg5]

theorem blk6 (c : Dev nD) (t : Fin cfg0.N) (j : Fin 50) :
    iblk m c 6 t (ix2 j (0 : Fin 1)) = m ((c : Thread nD τ).loc main_arg6) (ix1 j) := by
  show V m c main_v3 (((cfg0.win 6).blk t).view.emb (ix2 j (0 : Fin 1))) = _
  have he : ((cfg0.win 6).blk t).view.emb (ix2 j (0 : Fin 1)) = ix2 j (0 : Fin 1) := by
    obtain ⟨e0, e1⟩ := (idx_resident t).2.2.2.2.2.1
    funext a; apply Fin.ext
    match a with
    | ⟨0, _⟩ => show win0_6.index t (0 : Fin 2) * 50 + 1 * j.val = j.val; omega
    | ⟨1, _⟩ => show win0_6.index t (1 : Fin 2) * 1 + 1 * 0 = 0; omega
  rw [he, V_col3]
  exact Cert.Lib.Column.col_apply _ _ j

theorem blk7 (c : Dev nD) (t : Fin cfg0.N) (k : Fin 50) (j : Fin 100) :
    iblk m c 7 t (ix2 k j) = m ((c : Thread nD τ).loc main_arg7) (ix2 k j) := by
  show V m c main_arg7 (((cfg0.win 7).blk t).view.emb (ix2 k j)) = _
  have he : ((cfg0.win 7).blk t).view.emb (ix2 k j) = ix2 k j := by
    obtain ⟨e0, e1⟩ := (idx_resident t).2.2.2.2.2.2.1
    funext a; apply Fin.ext
    match a with
    | ⟨0, _⟩ => show win0_7.index t (0 : Fin 2) * 50 + 1 * k.val = k.val; omega
    | ⟨1, _⟩ => show win0_7.index t (1 : Fin 2) * 100 + 1 * j.val = j.val; omega
  rw [he, V_main_arg7]

theorem blk9 (c : Dev nD) (t : Fin cfg0.N) (k : Fin 2) (j : Fin 10) :
    iblk m c 9 t (ix2 k j) = m ((c : Thread nD τ).loc main_arg9) (ix2 k j) := by
  show V m c main_arg9 (((cfg0.win 9).blk t).view.emb (ix2 k j)) = _
  have he : ((cfg0.win 9).blk t).view.emb (ix2 k j) = ix2 k j := by
    obtain ⟨e0, e1⟩ := (idx_resident t).2.2.2.2.2.2.2.2.1
    funext a; apply Fin.ext
    match a with
    | ⟨0, _⟩ => show win0_9.index t (0 : Fin 2) * 2 + 1 * k.val = k.val; omega
    | ⟨1, _⟩ => show win0_9.index t (1 : Fin 2) * 10 + 1 * j.val = j.val; omega
  rw [he, V_main_arg9]

theorem blk10 (c : Dev nD) (t : Fin cfg0.N) (j : Fin 10) :
    iblk m c 10 t (ix2 j (0 : Fin 1)) = m ((c : Thread nD τ).loc main_arg10) (ix1 j) := by
  show V m c main_v5 (((cfg0.win 10).blk t).view.emb (ix2 j (0 : Fin 1))) = _
  have he : ((cfg0.win 10).blk t).view.emb (ix2 j (0 : Fin 1)) = ix2 j (0 : Fin 1) := by
    obtain ⟨e0, e1⟩ := (idx_resident t).2.2.2.2.2.2.2.2.2.1
    funext a; apply Fin.ext
    match a with
    | ⟨0, _⟩ => show win0_10.index t (0 : Fin 2) * 10 + 1 * j.val = j.val; omega
    | ⟨1, _⟩ => show win0_10.index t (1 : Fin 2) * 1 + 1 * 0 = 0; omega
  rw [he, V_col5]
  exact Cert.Lib.Column.col_apply _ _ j

theorem blk11 (c : Dev nD) (t : Fin cfg0.N) (k : Fin 10) (j : Fin 20) :
    iblk m c 11 t (ix2 k j) = m ((c : Thread nD τ).loc main_arg11) (ix2 k j) := by
  show V m c main_arg11 (((cfg0.win 11).blk t).view.emb (ix2 k j)) = _
  have he : ((cfg0.win 11).blk t).view.emb (ix2 k j) = ix2 k j := by
    obtain ⟨e0, e1⟩ := (idx_resident t).2.2.2.2.2.2.2.2.2.2.1
    funext a; apply Fin.ext
    match a with
    | ⟨0, _⟩ => show win0_11.index t (0 : Fin 2) * 10 + 1 * k.val = k.val; omega
    | ⟨1, _⟩ => show win0_11.index t (1 : Fin 2) * 20 + 1 * j.val = j.val; omega
  rw [he, V_main_arg11]

theorem blk12 (c : Dev nD) (t : Fin cfg0.N) (j : Fin 20) :
    iblk m c 12 t (ix2 j (0 : Fin 1)) = m ((c : Thread nD τ).loc main_arg12) (ix1 j) := by
  show V m c main_v6 (((cfg0.win 12).blk t).view.emb (ix2 j (0 : Fin 1))) = _
  have he : ((cfg0.win 12).blk t).view.emb (ix2 j (0 : Fin 1)) = ix2 j (0 : Fin 1) := by
    obtain ⟨e0, e1⟩ := (idx_resident t).2.2.2.2.2.2.2.2.2.2.2.1
    funext a; apply Fin.ext
    match a with
    | ⟨0, _⟩ => show win0_12.index t (0 : Fin 2) * 20 + 1 * j.val = j.val; omega
    | ⟨1, _⟩ => show win0_12.index t (1 : Fin 2) * 1 + 1 * 0 = 0; omega
  rw [he, V_col6]
  exact Cert.Lib.Column.col_apply _ _ j

theorem blk13 (c : Dev nD) (t : Fin cfg0.N) (k : Fin 20) (j : Fin 50) :
    iblk m c 13 t (ix2 k j) = m ((c : Thread nD τ).loc main_arg13) (ix2 k j) := by
  show V m c main_arg13 (((cfg0.win 13).blk t).view.emb (ix2 k j)) = _
  have he : ((cfg0.win 13).blk t).view.emb (ix2 k j) = ix2 k j := by
    obtain ⟨e0, e1⟩ := (idx_resident t).2.2.2.2.2.2.2.2.2.2.2.2.1
    funext a; apply Fin.ext
    match a with
    | ⟨0, _⟩ => show win0_13.index t (0 : Fin 2) * 20 + 1 * k.val = k.val; omega
    | ⟨1, _⟩ => show win0_13.index t (1 : Fin 2) * 50 + 1 * j.val = j.val; omega
  rw [he, V_main_arg13]

theorem blk14 (c : Dev nD) (t : Fin cfg0.N) (j : Fin 50) :
    iblk m c 14 t (ix2 j (0 : Fin 1)) = m ((c : Thread nD τ).loc main_arg14) (ix1 j) := by
  show V m c main_v7 (((cfg0.win 14).blk t).view.emb (ix2 j (0 : Fin 1))) = _
  have he : ((cfg0.win 14).blk t).view.emb (ix2 j (0 : Fin 1)) = ix2 j (0 : Fin 1) := by
    obtain ⟨e0, e1⟩ := (idx_resident t).2.2.2.2.2.2.2.2.2.2.2.2.2.1
    funext a; apply Fin.ext
    match a with
    | ⟨0, _⟩ => show win0_14.index t (0 : Fin 2) * 50 + 1 * j.val = j.val; omega
    | ⟨1, _⟩ => show win0_14.index t (1 : Fin 2) * 1 + 1 * 0 = 0; omega
  rw [he, V_col7]
  exact Cert.Lib.Column.col_apply _ _ j

theorem blk15 (c : Dev nD) (t : Fin cfg0.N) (k : Fin 50) (j : Fin 100) :
    iblk m c 15 t (ix2 k j) = m ((c : Thread nD τ).loc main_arg15) (ix2 k j) := by
  show V m c main_arg15 (((cfg0.win 15).blk t).view.emb (ix2 k j)) = _
  have he : ((cfg0.win 15).blk t).view.emb (ix2 k j) = ix2 k j := by
    obtain ⟨e0, e1⟩ := (idx_resident t).2.2.2.2.2.2.2.2.2.2.2.2.2.2.1
    funext a; apply Fin.ext
    match a with
    | ⟨0, _⟩ => show win0_15.index t (0 : Fin 2) * 50 + 1 * k.val = k.val; omega
    | ⟨1, _⟩ => show win0_15.index t (1 : Fin 2) * 100 + 1 * j.val = j.val; omega
  rw [he, V_main_arg15]

theorem blk16 (c : Dev nD) (t : Fin cfg0.N) (j : Fin 100) :
    iblk m c 16 t (ix2 (0 : Fin 1) j) = m ((c : Thread nD τ).loc main_arg16) (ix1 j) := by
  show V m c main_v8 (((cfg0.win 16).blk t).view.emb (ix2 (0 : Fin 1) j)) = _
  have he : ((cfg0.win 16).blk t).view.emb (ix2 (0 : Fin 1) j) = ix2 (0 : Fin 1) j := by
    obtain ⟨e0, e1⟩ := (idx_resident t).2.2.2.2.2.2.2.2.2.2.2.2.2.2.2
    funext a; apply Fin.ext
    match a with
    | ⟨0, _⟩ => show win0_16.index t (0 : Fin 2) * 1 + 1 * 0 = 0; omega
    | ⟨1, _⟩ => show win0_16.index t (1 : Fin 2) * 100 + 1 * j.val = j.val; omega
  rw [he, V_row8]
  exact shapeCast_a_1a_apply _ _ (0 : Fin 1) j

/-! ## The result array -/

/-- The decoder of the arguments as launched on core `c`. -/
def result (c : Dev nD) : S262144x100.Idx → EReal :=
  decoder (m ((c : Thread nD τ).loc main_arg0))
    (params (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6))
      (m ((c : Thread nD τ).loc main_arg7)) (m ((c : Thread nD τ).loc main_arg8)))
    (params (m ((c : Thread nD τ).loc main_arg9)) (m ((c : Thread nD τ).loc main_arg10)) (m ((c : Thread nD τ).loc main_arg11))
      (m ((c : Thread nD τ).loc main_arg12)) (m ((c : Thread nD τ).loc main_arg13)) (m ((c : Thread nD τ).loc main_arg14))
      (m ((c : Thread nD τ).loc main_arg15)) (m ((c : Thread nD τ).loc main_arg16)))

/-- What point `t` writes back is block `t` of the result: rows `8192·t …`. -/
theorem flushed_eq (c : Dev nD) (t : Fin cfg0.N) :
    (dats m 0 c).flushed 17 t = ((cfg0.win 17).blk t).view.read (Elt Ideal) (result m c) := by
  rw [Cert.KernelIdeal.Value.flushed17]
  funext y
  obtain ⟨p, j, rfl⟩ : ∃ (p : Fin 8192) (j : Fin 100), y = ix2 p j := ⟨y 0, y 1, @eq_ix2 8192 100 y⟩
  have hN : cfg0.N = 32 := N_0
  have hlt : t.val * 8192 + p.val < 262144 := by have := t.isLt; have := p.isLt; omega
  have he : ((cfg0.win 17).blk t).view.emb (ix2 p j) = ix2 (⟨t.val * 8192 + p.val, hlt⟩ : Fin 262144) j := by
    obtain ⟨-, -, e2, e3⟩ := idx_moving t
    funext a; apply Fin.ext
    match a with
    | ⟨0, _⟩ => show win0_17.index t (0 : Fin 2) * 8192 + 1 * p.val = t.val * 8192 + p.val; omega
    | ⟨1, _⟩ => show win0_17.index t (1 : Fin 2) * 100 + 1 * j.val = j.val; omega
  show out0_17 (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) (ix2 p j)
    = result m c (((cfg0.win 17).blk t).view.emb (ix2 p j))
  rw [he]
  refine (out_apply (iblk m c 0 t) (iblk m c 1 t) (iblk m c 2 t) (iblk m c 3 t) (iblk m c 4 t) (iblk m c 5 t) (iblk m c 6 t)
      (iblk m c 7 t) (iblk m c 8 t) (iblk m c 9 t) (iblk m c 10 t) (iblk m c 11 t) (iblk m c 12 t) (iblk m c 13 t)
      (iblk m c 14 t) (iblk m c 15 t) (iblk m c 16 t) p j).trans ?_
  have hx : (fun k : Fin 2 => iblk m c 0 t (ix2 k p))
      = fun k : Fin 2 => m ((c : Thread nD τ).loc main_arg0) (ix2 (⟨t.val * 8192 + p.val, hlt⟩ : Fin 262144) k) :=
    funext fun k => blk_x m c t k p _ rfl
  have hmu : blockParams (iblk m c 1 t) (iblk m c 2 t) (iblk m c 3 t) (iblk m c 4 t) (iblk m c 5 t) (iblk m c 6 t)
        (iblk m c 7 t) (iblk m c 8 t)
      = params (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6))
        (m ((c : Thread nD τ).loc main_arg7)) (m ((c : Thread nD τ).loc main_arg8)) := by
    unfold blockParams params
    simp only [blk1 m c t, blk2 m c t, blk3 m c t, blk4 m c t, blk5 m c t, blk6 m c t, blk7 m c t, blk8 m c t]
  have hsg : blockParams (iblk m c 9 t) (iblk m c 10 t) (iblk m c 11 t) (iblk m c 12 t) (iblk m c 13 t) (iblk m c 14 t)
        (iblk m c 15 t) (iblk m c 16 t)
      = params (m ((c : Thread nD τ).loc main_arg9)) (m ((c : Thread nD τ).loc main_arg10)) (m ((c : Thread nD τ).loc main_arg11))
        (m ((c : Thread nD τ).loc main_arg12)) (m ((c : Thread nD τ).loc main_arg13)) (m ((c : Thread nD τ).loc main_arg14))
        (m ((c : Thread nD τ).loc main_arg15)) (m ((c : Thread nD τ).loc main_arg16)) := by
    unfold blockParams params
    simp only [blk9 m c t, blk10 m c t, blk11 m c t, blk12 m c t, blk13 m c t, blk14 m c t, blk15 m c t, blk16 m c t]
  rw [hx, hmu, hsg]
  rfl

/-- An index of the result array is in point `t`'s block iff each coordinate is in the block's range on its axis. -/
theorem mem_blk (t : Fin cfg0.N) (i : S262144x100.Idx) :
    i ∈ ((cfg0.win 17).blk t).view.set ↔ ∀ a : Fin 2, win0_17.index t a * S8192x100.size a ≤ (i a).val
      ∧ (i a).val < win0_17.index t a * S8192x100.size a + S8192x100.size a := by
  show i ∈ ((View.whole main_v9).slice (win0_17.rect t)).set ↔ _
  rw [View.set_slice_whole, Rect.mem_set_unit]
  exact Iff.rfl

/-- The 32 blocks tile the result array: row `r` is in the block of point `r / 8192`. -/
theorem cover (i : S262144x100.Idx) :
    ∃ t : Fin cfg0.N, (cfg0.win 17).flush t = true ∧ i ∈ ((cfg0.win 17).blk t).view.set := by
  have hi0 : (i 0).val < 262144 := (i 0).isLt
  have hi1 : (i 1).val < 100 := (i 1).isLt
  have hN : cfg0.N = 32 := N_0
  obtain ⟨t, ht⟩ : ∃ t : Fin cfg0.N, t.val = (i 0).val / 8192 := ⟨⟨(i 0).val / 8192, by omega⟩, rfl⟩
  obtain ⟨-, -, e2, e3⟩ := idx_moving t
  refine ⟨t, flush0_17 t, ?_⟩
  rw [mem_blk]
  intro a
  match a with
  | ⟨0, _⟩ =>
    show win0_17.index t (0 : Fin 2) * 8192 ≤ (i 0).val ∧ (i 0).val < win0_17.index t (0 : Fin 2) * 8192 + 8192
    omega
  | ⟨1, _⟩ =>
    show win0_17.index t (1 : Fin 2) * 100 ≤ (i 1).val ∧ (i 1).val < win0_17.index t (1 : Fin 2) * 100 + 100
    omega

/-- After the run the result array is the decoder of the arguments. -/
theorem final (c : Dev nD) : (dats m 0 c).arrAt 17 cfg0.N = result m c :=
  (dats m 0 c).arrAt_eq_of_cover 17 (result m c) (fun t _ => flushed_eq m c t) cover

end Cert.Decoder.Kernel

end
-- ==== Proof.Reference.lean ====
/-
  The reference's result array is the decoder of its arguments.

  The reference applies each layer to the whole array: a matrix product with the weight, the bias repeated down the
  rows (first made a `1 × N` row, then repeated), and tanh. Read at entry `(r, j)`, a layer's result is the `layer`
  of row `r` of the layer's input at `j`: the product's entry is `Σ_k in(r, k) · W(k, j)` and the repeated bias's
  entry is `b(j)`. Chaining the four layers of each tower from row `r` of `x`, and adding the two towers, gives
  `decoder` — term for term, with no law of arithmetic used.
-/
import proofs.«150617_j48163763257556_2_alg».proof.Proof.Gen.ReferenceIdeal.Read
import proofs.«150617_j48163763257556_2_alg».proof.Proof.Decoder

noncomputable section

namespace Cert.Decoder.Reference

open Cert.ReferenceIdeal Cert.ReferenceIdeal.Read Idealize.ShloMosaic Idealize.ShloMosaic.ValueIdx
open Cert.Lib.DenseCols Cert.Decoder

variable (x0 : (⟨S262144x2, .f32⟩ : BufTy).Contents (Elt Ideal))
  (x1 : (⟨S2x10, .f32⟩ : BufTy).Contents (Elt Ideal)) (x2 : (⟨S10, .f32⟩ : BufTy).Contents (Elt Ideal))
  (x3 : (⟨S10x20, .f32⟩ : BufTy).Contents (Elt Ideal)) (x4 : (⟨S20, .f32⟩ : BufTy).Contents (Elt Ideal))
  (x5 : (⟨S20x50, .f32⟩ : BufTy).Contents (Elt Ideal)) (x6 : (⟨S50, .f32⟩ : BufTy).Contents (Elt Ideal))
  (x7 : (⟨S50x100, .f32⟩ : BufTy).Contents (Elt Ideal)) (x8 : (⟨S100, .f32⟩ : BufTy).Contents (Elt Ideal))
  (x9 : (⟨S2x10, .f32⟩ : BufTy).Contents (Elt Ideal)) (x10 : (⟨S10, .f32⟩ : BufTy).Contents (Elt Ideal))
  (x11 : (⟨S10x20, .f32⟩ : BufTy).Contents (Elt Ideal)) (x12 : (⟨S20, .f32⟩ : BufTy).Contents (Elt Ideal))
  (x13 : (⟨S20x50, .f32⟩ : BufTy).Contents (Elt Ideal)) (x14 : (⟨S50, .f32⟩ : BufTy).Contents (Elt Ideal))
  (x15 : (⟨S50x100, .f32⟩ : BufTy).Contents (Elt Ideal)) (x16 : (⟨S100, .f32⟩ : BufTy).Contents (Elt Ideal))

/-! ## The first tower, layer by layer -/

/-- Layer 1 of the first tower at `(r, j)`: the layer of row `r` of `x`. -/
theorem mu1 (r : Fin 262144) (j : Fin 10) :
    val_main_v4 (F := Ideal) x0 x1 x2 (ix2 r j)
      = layer (fun k => x0 (ix2 r k)) (fun k j => x1 (ix2 k j)) (fun j => x2 (ix1 j)) j := by
  have el : ∀ k : Fin 2, lidx_main_v0 (ix2 r j) k = ix2 r k := fun k =>
    funext fun a => Fin.ext (by match a with | ⟨0, _⟩ => rfl | ⟨1, _⟩ => rfl)
  have er : ∀ k : Fin 2, ridx_main_v0 (ix2 r j) k = ix2 k j := fun k =>
    funext fun a => Fin.ext (by match a with | ⟨0, _⟩ => rfl | ⟨1, _⟩ => rfl)
  have eb : idx_main_v1 (idx_main_v2 (ix2 r j)) = ix1 j :=
    funext fun a => Fin.ext (by match a with | ⟨0, _⟩ => rfl)
  rw [val_main_v4_apply, val_main_v3_apply, val_main_v0_apply, val_main_v2_apply, val_main_v1_apply, eb]
  simp only [el, er]
  rfl

/-- Layer 2 of the first tower at `(r, j)`: the layer of row `r` of layer 1's result. -/
theorem mu2 (r : Fin 262144) (j : Fin 20) :
    val_main_v9 (F := Ideal) x0 x1 x2 x3 x4 (ix2 r j)
      = layer (fun k => val_main_v4 (F := Ideal) x0 x1 x2 (ix2 r k)) (fun k j => x3 (ix2 k j)) (fun j => x4 (ix1 j)) j := by
  have el : ∀ k : Fin 10, lidx_main_v5 (ix2 r j) k = ix2 r k := fun k =>
    funext fun a => Fin.ext (by match a with | ⟨0, _⟩ => rfl | ⟨1, _⟩ => rfl)
  have er : ∀ k : Fin 10, ridx_main_v5 (ix2 r j) k = ix2 k j := fun k =>
    funext fun a => Fin.ext (by match a with | ⟨0, _⟩ => rfl | ⟨1, _⟩ => rfl)
  have eb : idx_main_v6 (idx_main_v7 (ix2 r j)) = ix1 j :=
    funext fun a => Fin.ext (by match a with | ⟨0, _⟩ => rfl)
  rw [val_main_v9_apply, val_main_v8_apply, val_main_v5_apply, val_main_v7_apply, val_main_v6_apply, eb]
  simp only [el, er]
  rfl

/-- Layer 3 of the first tower at `(r, j)`. -/
theorem mu3 (r : Fin 262144) (j : Fin 50) :
    val_main_v14 (F := Ideal) x0 x1 x2 x3 x4 x5 x6 (ix2 r j)
      = layer (fun k => val_main_v9 (F := Ideal) x0 x1 x2 x3 x4 (ix2 r k)) (fun k j => x5 (ix2 k j)) (fun j => x6 (ix1 j)) j := by
  have el : ∀ k : Fin 20, lidx_main_v10 (ix2 r j) k = ix2 r k := fun k =>
    funext fun a => Fin.ext (by match a with | ⟨0, _⟩ => rfl | ⟨1, _⟩ => rfl)
  have er : ∀ k : Fin 20, ridx_main_v10 (ix2 r j) k = ix2 k j := fun k =>
    funext fun a => Fin.ext (by match a with | ⟨0, _⟩ => rfl | ⟨1, _⟩ => rfl)
  have eb : idx_main_v11 (idx_main_v12 (ix2 r j)) = ix1 j :=
    funext fun a => Fin.ext (by match a with | ⟨0, _⟩ => rfl)
  rw [val_main_v14_apply, val_main_v13_apply, val_main_v10_apply, val_main_v12_apply, val_main_v11_apply, eb]
  simp only [el, er]
  rfl

/-- Layer 4 of the first tower at `(r, j)`. -/
theorem mu4 (r : Fin 262144) (j : Fin 100) :
    val_main_v19 (F := Ideal) x0 x1 x2 x3 x4 x5 x6 x7 x8 (ix2 r j)
      = layer (fun k => val_main_v14 (F := Ideal) x0 x1 x2 x3 x4 x5 x6 (ix2 r k)) (fun k j => x7 (ix2 k j)) (fun j => x8 (ix1 j)) j := by
  have el : ∀ k : Fin 50, lidx_main_v15 (ix2 r j) k = ix2 r k := fun k =>
    funext fun a => Fin.ext (by match a with | ⟨0, _⟩ => rfl | ⟨1, _⟩ => rfl)
  have er : ∀ k : Fin 50, ridx_main_v15 (ix2 r j) k = ix2 k j := fun k =>
    funext fun a => Fin.ext (by match a with | ⟨0, _⟩ => rfl | ⟨1, _⟩ => rfl)
  have eb : idx_main_v16 (idx_main_v17 (ix2 r j)) = ix1 j :=
    funext fun a => Fin.ext (by match a with | ⟨0, _⟩ => rfl)
  rw [val_main_v19_apply, val_main_v18_apply, val_main_v15_apply, val_main_v17_apply, val_main_v16_apply, eb]
  simp only [el, er]
  rfl

/-! ## The second tower, layer by layer -/

/-- Layer 1 of the second tower at `(r, j)`: the layer of row `r` of `x`. -/
theorem sg1 (r : Fin 262144) (j : Fin 10) :
    val_main_v24 (F := Ideal) x0 x9 x10 (ix2 r j)
      = layer (fun k => x0 (ix2 r k)) (fun k j => x9 (ix2 k j)) (fun j => x10 (ix1 j)) j := by
  have el : ∀ k : Fin 2, lidx_main_v20 (ix2 r j) k = ix2 r k := fun k =>
    funext fun a => Fin.ext (by match a with | ⟨0, _⟩ => rfl | ⟨1, _⟩ => rfl)
  have er : ∀ k : Fin 2, ridx_main_v20 (ix2 r j) k = ix2 k j := fun k =>
    funext fun a => Fin.ext (by match a with | ⟨0, _⟩ => rfl | ⟨1, _⟩ => rfl)
  have eb : idx_main_v21 (idx_main_v22 (ix2 r j)) = ix1 j :=
    funext fun a => Fin.ext (by match a with | ⟨0, _⟩ => rfl)
  rw [val_main_v24_apply, val_main_v23_apply, val_main_v20_apply, val_main_v22_apply, val_main_v21_apply, eb]
  simp only [el, er]
  rfl

/-- Layer 2 of the second tower at `(r, j)`. -/
theorem sg2 (r : Fin 262144) (j : Fin 20) :
    val_main_v29 (F := Ideal) x0 x9 x10 x11 x12 (ix2 r j)
      = layer (fun k => val_main_v24 (F := Ideal) x0 x9 x10 (ix2 r k)) (fun k j => x11 (ix2 k j)) (fun j => x12 (ix1 j)) j := by
  have el : ∀ k : Fin 10, lidx_main_v25 (ix2 r j) k = ix2 r k := fun k =>
    funext fun a => Fin.ext (by match a with | ⟨0, _⟩ => rfl | ⟨1, _⟩ => rfl)
  have er : ∀ k : Fin 10, ridx_main_v25 (ix2 r j) k = ix2 k j := fun k =>
    funext fun a => Fin.ext (by match a with | ⟨0, _⟩ => rfl | ⟨1, _⟩ => rfl)
  have eb : idx_main_v26 (idx_main_v27 (ix2 r j)) = ix1 j :=
    funext fun a => Fin.ext (by match a with | ⟨0, _⟩ => rfl)
  rw [val_main_v29_apply, val_main_v28_apply, val_main_v25_apply, val_main_v27_apply, val_main_v26_apply, eb]
  simp only [el, er]
  rfl

/-- Layer 3 of the second tower at `(r, j)`. -/
theorem sg3 (r : Fin 262144) (j : Fin 50) :
    val_main_v34 (F := Ideal) x0 x9 x10 x11 x12 x13 x14 (ix2 r j)
      = layer (fun k => val_main_v29 (F := Ideal) x0 x9 x10 x11 x12 (ix2 r k)) (fun k j => x13 (ix2 k j)) (fun j => x14 (ix1 j)) j := by
  have el : ∀ k : Fin 20, lidx_main_v30 (ix2 r j) k = ix2 r k := fun k =>
    funext fun a => Fin.ext (by match a with | ⟨0, _⟩ => rfl | ⟨1, _⟩ => rfl)
  have er : ∀ k : Fin 20, ridx_main_v30 (ix2 r j) k = ix2 k j := fun k =>
    funext fun a => Fin.ext (by match a with | ⟨0, _⟩ => rfl | ⟨1, _⟩ => rfl)
  have eb : idx_main_v31 (idx_main_v32 (ix2 r j)) = ix1 j :=
    funext fun a => Fin.ext (by match a with | ⟨0, _⟩ => rfl)
  rw [val_main_v34_apply, val_main_v33_apply, val_main_v30_apply, val_main_v32_apply, val_main_v31_apply, eb]
  simp only [el, er]
  rfl

/-- Layer 4 of the second tower at `(r, j)`. -/
theorem sg4 (r : Fin 262144) (j : Fin 100) :
    val_main_v39 (F := Ideal) x0 x9 x10 x11 x12 x13 x14 x15 x16 (ix2 r j)
      = layer (fun k => val_main_v34 (F := Ideal) x0 x9 x10 x11 x12 x13 x14 (ix2 r k)) (fun k j => x15 (ix2 k j)) (fun j => x16 (ix1 j)) j := by
  have el : ∀ k : Fin 50, lidx_main_v35 (ix2 r j) k = ix2 r k := fun k =>
    funext fun a => Fin.ext (by match a with | ⟨0, _⟩ => rfl | ⟨1, _⟩ => rfl)
  have er : ∀ k : Fin 50, ridx_main_v35 (ix2 r j) k = ix2 k j := fun k =>
    funext fun a => Fin.ext (by match a with | ⟨0, _⟩ => rfl | ⟨1, _⟩ => rfl)
  have eb : idx_main_v36 (idx_main_v37 (ix2 r j)) = ix1 j :=
    funext fun a => Fin.ext (by match a with | ⟨0, _⟩ => rfl)
  rw [val_main_v39_apply, val_main_v38_apply, val_main_v35_apply, val_main_v37_apply, val_main_v36_apply, eb]
  simp only [el, er]
  rfl

/-! ## The whole result -/

/-- The reference's result array is the decoder of its arguments, with each tower's parameters read off its arrays. -/
theorem result_eq :
    val_main_v40 (F := Ideal) x0 x1 x2 x3 x4 x5 x6 x7 x8 x9 x10 x11 x12 x13 x14 x15 x16
      = decoder x0 (params x1 x2 x3 x4 x5 x6 x7 x8) (params x9 x10 x11 x12 x13 x14 x15 x16) := by
  funext i
  obtain ⟨r, j, rfl⟩ : ∃ (r : Fin 262144) (j : Fin 100), i = ix2 r j := ⟨i 0, i 1, eq_ix2 i⟩
  rw [val_main_v40_apply, decoder_apply]
  show val_main_v19 (F := Ideal) x0 x1 x2 x3 x4 x5 x6 x7 x8 (ix2 r j)
      + val_main_v39 (F := Ideal) x0 x9 x10 x11 x12 x13 x14 x15 x16 (ix2 r j) = _
  rw [mu4, sg4]
  simp only [mu3, mu2, mu1, sg3, sg2, sg1]
  rfl

end Cert.Decoder.Reference

end
-- ==== Proof.lean ====
/-
  The certificate: a kernel that runs two four-layer tanh decoders on 262144 rows of two features and adds them,
  against the same computation written with whole-array operations.

  What is computed. For a row `x_r` of two features and a tower's parameters `(W1, b1, …, W4, b4)`,
  `tower x_r = layer (layer (layer (layer x_r W1 b1) W2 b2) W3 b3) W4 b4`, where
  `layer h W b j = tanh (Σ_k h k · W k j + b j)`; the result's entry `(r, j)` is the first tower of `x_r` at `j` plus
  the second tower of `x_r` at `j` (Proof/Decoder.lean, `decoder`).

  The reference computes each layer on the whole array: a product with the weight, the bias repeated down the rows,
  tanh. Read at an entry, that is the `layer` of a row, term for term (Proof/Reference.lean).

  The kernel cuts the rows into 32 blocks of 8192 and, inside a block, keeps the activations of layers 1–3 transposed
  (one column per sample): a layer there is `Wᵀ h` plus the bias as a column, and the fourth layer flips back,
  `hᵀ W` plus the bias as a row. At an entry these are the same sums with the two factors of each product exchanged
  (Proof/LibDotCols.lean, Proof/LibDenseCols.lean, Proof/Body.lean); the host's transpose of `x` and its recasts of the
  biases put each block's entries where the rows of the arguments are, and the 32 blocks tile the result
  (Proof/KernelValue.lean). The only law of arithmetic used is commutativity of the product on the extended reals, which
  holds at the infinities too, so the precondition (every input finite) is never opened.

  The three frame claims are the generated frame runs (for the reference, its generated run with the result dropped);
  the idealization rewrote nothing, so `preserves` is `True`.
-/
import proofs.«150617_j48163763257556_2_alg».proof.Defs
import proofs.«150617_j48163763257556_2_alg».proof.Proof.Gen.Kernel
import proofs.«150617_j48163763257556_2_alg».proof.Proof.Gen.Kernel.Frame
import proofs.«150617_j48163763257556_2_alg».proof.Proof.Gen.KernelIdeal
import proofs.«150617_j48163763257556_2_alg».proof.Proof.Gen.KernelIdeal.Frame
import proofs.«150617_j48163763257556_2_alg».proof.Proof.Gen.KernelIdeal.Value
import proofs.«150617_j48163763257556_2_alg».proof.Proof.Gen.ReferenceIdeal
import proofs.«150617_j48163763257556_2_alg».proof.Proof.Gen.ReferenceIdeal.Run
import proofs.«150617_j48163763257556_2_alg».proof.Proof.Gen.ReferenceIdeal.Read
import proofs.«150617_j48163763257556_2_alg».proof.Proof.Gen.Pre_finite_inputs
import proofs.«150617_j48163763257556_2_alg».proof.Proof.KernelValue
import proofs.«150617_j48163763257556_2_alg».proof.Proof.Reference
import Idealize.ShloMosaic.Adequacy
import Idealize.ShloMosaic.Init

noncomputable section

namespace Cert.Proof

open Idealize.ShloMosaic Idealize.ShloMosaic.TcCoe Idealize.SL.Sem

/-- The word-level kernel terminates, faults nowhere and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the reference: its run, with what it says about the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the seventeen arguments, both programs end with the `decoder` of the arguments in
    their result arrays: the kernel block by block (`Kernel.final`), the reference operation by operation
    (`Reference.result_eq`). -/
theorem algebraic : Cert.algebraic_KernelIdeal_ReferenceIdeal := by
  intro m ρ m' ρ' _ hagree
  refine ⟨fun c => Cert.Decoder.Kernel.result m c, ?_, ?_⟩
  · exact (θ_run Cert.KernelIdeal.defs _ _).mono
      (fun r h c => ⟨(h c).1.trans (Cert.Decoder.Kernel.final m c), (h c).2⟩)
      (Cert.KernelIdeal.Value.run_blocks (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11, h12, h13, h14, h15, h16⟩ := hagree c
    rw [Cert.ReferenceIdeal.Read.val_main_v40_eq, Cert.Decoder.Reference.result_eq,
      h0, h1, h2, h3, h4, h5, h6, h7, h8, h9, h10, h11, h12, h13, h14, h15, h16]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
